-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x128 : Shape := ⟨4, ![2, 16, 2048, 128]⟩
abbrev S_ : Shape := ⟨0, ![]⟩

class Facts : Prop where
  bcast_S_S2x16x2048x128 : S_.BroadcastsInDim S2x16x2048x128 (![] : Fin 0 → Fin S2x16x2048x128.rank)
  reducesTo_S2x16x2048x128_S_d0_1_2_3 : S2x16x2048x128.ReducesTo [0, 1, 2, 3] S_
  h_S_ : 0 < S_.numel

variable [Facts]

def fn {F : FTy → Type} [FloatOps F] (main_arg0 : FVec F S2x16x2048x128 .f32) (main_arg1 : FVec F S2x16x2048x128 .f32) (main_arg2 : FVec F S2x16x2048x128 .f32) : IVec S_ 1 :=
  let main_v0 : FVec F S2x16x2048x128 .f32 := Host.absf main_arg0
  let main_cst : FVec F S_ .f32 := constant S_ .f32 0x7F800000#32
  let main_v1 : FVec F S2x16x2048x128 .f32 := broadcastInDim S2x16x2048x128 ![] bcast_S_S2x16x2048x128 main_cst
  let main_v2 : IVec S2x16x2048x128 1 := cmpf .olt main_v0 main_v1
  let main_c : IVec S_ 1 := constantI S_ 1 1#1
  let main_v3 : IVec S_ 1 := (fun x v => Host.reduce IntOp.andi x v reducesTo_S2x16x2048x128_S_d0_1_2_3 h_S_) main_v2 main_c
  let main_v4 : FVec F S2x16x2048x128 .f32 := Host.absf main_arg1
  let main_cst_0 : FVec F S_ .f32 := constant S_ .f32 0x7F800000#32
  let main_v5 : FVec F S2x16x2048x128 .f32 := broadcastInDim S2x16x2048x128 ![] bcast_S_S2x16x2048x128 main_cst_0
  let main_v6 : IVec S2x16x2048x128 1 := cmpf .olt main_v4 main_v5
  let main_c_1 : IVec S_ 1 := constantI S_ 1 1#1
  let main_v7 : IVec S_ 1 := (fun x v => Host.reduce IntOp.andi x v reducesTo_S2x16x2048x128_S_d0_1_2_3 h_S_) main_v6 main_c_1
  let main_v8 : IVec S_ 1 := andi main_v3 main_v7
  let main_v9 : FVec F S2x16x2048x128 .f32 := Host.absf main_arg2
  let main_cst_2 : FVec F S_ .f32 := constant S_ .f32 0x7F800000#32
  let main_v10 : FVec F S2x16x2048x128 .f32 := broadcastInDim S2x16x2048x128 ![] bcast_S_S2x16x2048x128 main_cst_2
  let main_v11 : IVec S2x16x2048x128 1 := cmpf .olt main_v9 main_v10
  let main_c_3 : IVec S_ 1 := constantI S_ 1 1#1
  let main_v12 : IVec S_ 1 := (fun x v => Host.reduce IntOp.andi x v reducesTo_S2x16x2048x128_S_d0_1_2_3 h_S_) main_v11 main_c_3
  let main_v13 : IVec S_ 1 := andi main_v8 main_v12
  main_v13
-- ==== Kernel.lean ====
abbrev S2x16x2048x128 : Shape := ⟨4, ![2, 16, 2048, 128]⟩
abbrev S32x2048x128 : Shape := ⟨3, ![32, 2048, 128]⟩
abbrev S1x1024x128 : Shape := ⟨3, ![1, 1024, 128]⟩
abbrev S1024x128 : Shape := ⟨2, ![1024, 128]⟩
abbrev S1024 : Shape := ⟨1, ![1024]⟩
abbrev S1024x1 : Shape := ⟨2, ![1024, 1]⟩
abbrev S128x1024 : Shape := ⟨2, ![128, 1024]⟩
abbrev S1024x1024 : Shape := ⟨2, ![1024, 1024]⟩
abbrev S1x1024 : Shape := ⟨2, ![1, 1024]⟩

abbrev nBuf : Space → Nat
  | .hbm => 8
  | .vmem => 9
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S32x2048x128, .f32⟩
  | .hbm, ⟨4, _⟩ => ⟨S32x2048x128, .f32⟩
  | .hbm, ⟨5, _⟩ => ⟨S32x2048x128, .f32⟩
  | .hbm, ⟨6, _⟩ => ⟨S32x2048x128, .f32⟩
  | .hbm, ⟨7, _⟩ => ⟨S2x16x2048x128, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1024x128, .f32⟩
  | _, _ => ⟨S2x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 2, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S2x16x2048x128_S32x2048x128 : S2x16x2048x128.ShapeCasts S32x2048x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  reduces_S1024x128_S1024 : S1024x128.Reduces [1] S1024
  shapeCasts_S1024_S1024x1 : S1024.ShapeCasts S1024x1
  bitsLt_bf16_f32 : FTy.bits .bf16 < FTy.bits .f32
  transposes_S1024x128_p1_0_S128x1024 : S1024x128.Transposes [1, 0] S128x1024
  broadcasts_S1024x1_S1024x1024 : S1024x1.Broadcasts S1024x1024
  transposes_S1024x1_p1_0_S1x1024 : S1024x1.Transposes [1, 0] S1x1024
  broadcasts_S1x1024_S1024x1024 : S1x1024.Broadcasts S1024x1024
  iota_S1024x1024_d0_w32 : S1024x1024.Iotas .tc 32 [0]
  iota_S1024x1024_d1_w32 : S1024x1024.Iotas .tc 32 [1]
  shapeCasts_S1024x128_S1x1024x128 : S1024x128.ShapeCasts S1x1024x128
  shapeCasts_S32x2048x128_S2x16x2048x128 : S32x2048x128.ShapeCasts S2x16x2048x128
  dot_S1024x128_S128x1024_S1024x1024_1_0_0_1_n_n_wf : DotDims.WF S1024x128 S128x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S32x2048x128.size a
  hwx0_0 : ∀ i : grid0.Coords, EltTy.bits .f32 = 32 ∨ (Rect.block (s := S32x2048x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S32x2048x128.size a
  hwx0_1 : ∀ i : grid0.Coords, EltTy.bits .f32 = 32 ∨ (Rect.block (s := S32x2048x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S32x2048x128.size a
  hwx0_2 : ∀ i : grid0.Coords, EltTy.bits .f32 = 32 ∨ (Rect.block (s := S32x2048x128) S1x1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S32x2048x128.size a
  hwx0_3 : ∀ i : grid0.Coords, EltTy.bits .f32 = 32 ∨ (Rect.block (s := S32x2048x128) S1x1024x128.size (cc0_transform_3 i) (hinb0_3 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S2x16x2048x128 : Shape := ⟨4, ![2, 16, 2048, 128]⟩
abbrev S_ : Shape := ⟨0, ![]⟩
abbrev S2x16x2048 : Shape := ⟨3, ![2, 16, 2048]⟩
abbrev S2x16x2048x2048 : Shape := ⟨4, ![2, 16, 2048, 2048]⟩
abbrev S2x16x2048x1 : Shape := ⟨4, ![2, 16, 2048, 1]⟩
abbrev S2x16x1x2048 : Shape := ⟨4, ![2, 16, 1, 2048]⟩
abbrev S2048x2048 : Shape := ⟨2, ![2048, 2048]⟩
abbrev S1x1x2048x2048 : Shape := ⟨4, ![1, 1, 2048, 2048]⟩

abbrev nBuf : Space → Nat
  | .hbm => 44
  | .vmem => 0
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S2x16x2048x128, .f32⟩
  | .hbm, ⟨4, _⟩ => ⟨S_, .f32⟩
  | .hbm, ⟨5, _⟩ => ⟨S2x16x2048, .f32⟩
  | .hbm, ⟨6, _⟩ => ⟨S2x16x2048x128, .f32⟩
  | .hbm, ⟨7, _⟩ => ⟨S_, .f32⟩
  | .hbm, ⟨8, _⟩ => ⟨S2x16x2048, .f32⟩
  | .hbm, ⟨9, _⟩ => ⟨S2x16x2048x2048, .f32⟩
  | .hbm, ⟨10, _⟩ => ⟨S_, .f32⟩
  | .hbm, ⟨11, _⟩ => ⟨S2x16x2048x2048, .f32⟩
  | .hbm, ⟨12, _⟩ => ⟨S2x16x2048x2048, .f32⟩
  | .hbm, ⟨13, _⟩ => ⟨S2x16x2048x1, .f32⟩
  | .hbm, ⟨14, _⟩ => ⟨S_, .f32⟩
  | .hbm, ⟨15, _⟩ => ⟨S2x16x2048x1, .f32⟩
  | .hbm, ⟨16, _⟩ => ⟨S2x16x2048x1, .f32⟩
  | .hbm, ⟨17, _⟩ => ⟨S2x16x2048x2048, .f32⟩
  | .hbm, ⟨18, _⟩ => ⟨S2x16x2048x2048, .f32⟩
  | .hbm, ⟨19, _⟩ => ⟨S2x16x1x2048, .f32⟩
  | .hbm, ⟨20, _⟩ => ⟨S_, .f32⟩
  | .hbm, ⟨21, _⟩ => ⟨S2x16x1x2048, .f32⟩
  | .hbm, ⟨22, _⟩ => ⟨S2x16x1x2048, .f32⟩
  | .hbm, ⟨23, _⟩ => ⟨S2x16x2048x2048, .f32⟩
  | .hbm, ⟨24, _⟩ => ⟨S2x16x2048x2048, .f32⟩
  | .hbm, ⟨25, _⟩ => ⟨S_, .i1⟩
  | .hbm, ⟨26, _⟩ => ⟨S2048x2048, .i1⟩
  | .hbm, ⟨27, _⟩ => ⟨S2048x2048, .i32⟩
  | .hbm, ⟨28, _⟩ => ⟨S_, .i32⟩
  | .hbm, ⟨29, _⟩ => ⟨S2048x2048, .i32⟩
  | .hbm, ⟨30, _⟩ => ⟨S2048x2048, .i32⟩
  | .hbm, ⟨31, _⟩ => ⟨S2048x2048, .i32⟩
  | .hbm, ⟨32, _⟩ => ⟨S2048x2048, .i1⟩
  | .hbm, ⟨33, _⟩ => ⟨S_, .i1⟩
  | .hbm, ⟨34, _⟩ => ⟨S2048x2048, .i1⟩
  | .hbm, ⟨35, _⟩ => ⟨S2048x2048, .i1⟩
  | .hbm, ⟨36, _⟩ => ⟨S1x1x2048x2048, .i1⟩
  | .hbm, ⟨37, _⟩ => ⟨S2x16x2048x2048, .f32⟩
  | .hbm, ⟨38, _⟩ => ⟨S_, .f32⟩
  | .hbm, ⟨39, _⟩ => ⟨S_, .f32⟩
  | .hbm, ⟨40, _⟩ => ⟨S2x16x2048x2048, .i1⟩
  | .hbm, ⟨41, _⟩ => ⟨S2x16x2048x2048, .f32⟩
  | .hbm, ⟨42, _⟩ => ⟨S2x16x2048x2048, .f32⟩
  | .hbm, ⟨43, _⟩ => ⟨S2x16x2048x128, .f32⟩
  | _, _ => ⟨S2x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_c_0 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v21 : Ref sig .tc := ⟨.hbm, 42, rfl⟩
abbrev main_v22 : Ref sig .tc := ⟨.hbm, 43, rfl⟩

abbrev nD : Nat := 1
abbrev τ : Topo := Topo.v7x

variable {F : FTy → Type} [FloatOps F]

class Facts₀ : Prop where
  reducesTo_S2x16x2048x128_S2x16x2048_d3 : S2x16x2048x128.ReducesTo [3] S2x16x2048
  h_S_ : 0 < S_.numel
  bcast_S_S2x16x2048x2048 : S_.BroadcastsInDim S2x16x2048x2048 (![] : Fin 0 → Fin S2x16x2048x2048.rank)
  bcast_S2x16x2048_S2x16x2048x1_0_1_2 : S2x16x2048.BroadcastsInDim S2x16x2048x1 (![0, 1, 2] : Fin 3 → Fin S2x16x2048x1.rank)
  bcast_S_S2x16x2048x1 : S_.BroadcastsInDim S2x16x2048x1 (![] : Fin 0 → Fin S2x16x2048x1.rank)
  bcast_S2x16x2048x1_S2x16x2048x2048_0_1_2_3 : S2x16x2048x1.BroadcastsInDim S2x16x2048x2048 (![0, 1, 2, 3] : Fin 4 → Fin S2x16x2048x2048.rank)
  bcast_S2x16x2048_S2x16x1x2048_0_1_3 : S2x16x2048.BroadcastsInDim S2x16x1x2048 (![0, 1, 3] : Fin 3 → Fin S2x16x1x2048.rank)
  bcast_S_S2x16x1x2048 : S_.BroadcastsInDim S2x16x1x2048 (![] : Fin 0 → Fin S2x16x1x2048.rank)
  bcast_S2x16x1x2048_S2x16x2048x2048_0_1_2_3 : S2x16x1x2048.BroadcastsInDim S2x16x2048x2048 (![0, 1, 2, 3] : Fin 4 → Fin S2x16x2048x2048.rank)
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S2x16x2048x2048_0_1_2_3 : S1x1x2048x2048.BroadcastsInDim S2x16x2048x2048 (![0, 1, 2, 3] : Fin 4 → Fin S2x16x2048x2048.rank)
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]

variable [Facts₀]

def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf

class Facts : Prop extends Facts₀ where

variable [Facts]
-- ==== Proof.Kernel.Cases.lean ====
/-
  The grid of the causal attention kernel is (head, query block, key block) = 32 × 2 × 2, a point's position
  t = 4·head + 2·(query block) + (key block). The body has three guarded regions: it zeroes the accumulator at
  key block 0, it adds the block's contribution when key block ≤ query block (the blocks on or below the
  diagonal), and it copies the accumulator into the output block at key block 1. Over the grid only three
  combinations occur: positions ≡ 0, 2 (mod 4) zero and add; position ≡ 1 (mod 4) — the block above the
  diagonal — only copies out; position ≡ 3 (mod 4) adds and copies out. This module states the three guards,
  decides each over the grid, and names the buffers the body runs on.
-/
import proofs.«161130_j21603685499692_1_alg».proof.Proof.Gen.Kernel.Frame
import proofs.«161130_j21603685499692_1_alg».proof.Proof.Gen.Kernel.Skeleton

set_option maxRecDepth 16384

noncomputable section

namespace Cert.Kernel.Causal

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three guards, as the body computes them from the grid coordinates -/

/-- "key block = 0": the accumulator is zeroed. -/
abbrev zeroes (i : grid0.Coords) : Prop :=
  (Scalar.cmpi .ne (Scalar.extui (Scalar.cmpi .eq (BitVec.ofNat 32 (i 2).val) 0#32)) 0#32) = 1#1
/-- It holds exactly at the even positions. -/
theorem zeroes_iff : ∀ t : Fin cfg0.N, zeroes (grid0.coords t) ↔ t.val % 2 = 0 :=
  (by decide +kernel : ∀ t : Fin grid0.N, zeroes (grid0.coords t) ↔ t.val % 2 = 0)

/-- "key block ≤ query block": the block is on or below the diagonal and its contribution is added. -/
abbrev adds (i : grid0.Coords) : Prop :=
  (Scalar.cmpi .ne (Scalar.extui (Scalar.cmpi .sle (BitVec.ofNat 32 (i 2).val) (BitVec.ofNat 32 (i 1).val))) 0#32) = 1#1
/-- It fails exactly at query block 0, key block 1: the positions ≡ 1 (mod 4). -/
theorem adds_iff : ∀ t : Fin cfg0.N, adds (grid0.coords t) ↔ ¬ t.val % 4 = 1 :=
  (by decide +kernel : ∀ t : Fin grid0.N, adds (grid0.coords t) ↔ ¬ t.val % 4 = 1)

/-- "key block = 1" (the last one): the accumulator is copied into the output block. -/
abbrev emits (i : grid0.Coords) : Prop := k0_cond3 i = 1#1
/-- It holds exactly at the odd positions. -/
theorem emits_iff : ∀ t : Fin cfg0.N, emits (grid0.coords t) ↔ t.val % 2 = 1 :=
  (by decide +kernel : ∀ t : Fin grid0.N, emits (grid0.coords t) ↔ t.val % 2 = 1)

/-! ## Where the windows are idle -/

theorem live_q : ∀ t : Fin cfg0.N, cfg0.idle 0 (grid0.coords t) = false := by decide +kernel
theorem live_k : ∀ t : Fin cfg0.N, cfg0.idle 1 (grid0.coords t) = false := by decide +kernel
theorem live_v : ∀ t : Fin cfg0.N, cfg0.idle 2 (grid0.coords t) = false := by decide +kernel
/-- Where nothing is copied out the output window is idle, -/
theorem idle_out : ∀ t : Fin cfg0.N, ¬emits (grid0.coords t) → cfg0.idle 3 (grid0.coords t) = true := by decide +kernel
/-- and its block is not written back there; -/
theorem noflush_out : ∀ t : Fin cfg0.N, ¬emits (grid0.coords t) → (cfg0.win 3).flush t = false := by decide +kernel
/-- where the accumulator is copied out it is live. -/
theorem live_out : ∀ t : Fin cfg0.N, emits (grid0.coords t) → cfg0.idle 3 (grid0.coords t) = false := by decide +kernel

/-! ## The buffers the body runs on -/

/-- One staging buffer of the output window, through which its contents are stated. -/
abbrev VO : View sig .tc .vmem S1x1024x128 .f32 := (Memref.whole cc0_stg3_0 : Memref sig .tc .vmem S1x1024x128 .f32).view
/-- The current staging buffers at position `t`: the query block's, the key block's, the value block's, the output block's. -/
abbrev mq (t : Fin cfg0.N) : Memref sig .tc .vmem S1x1024x128 .f32 := win0_0.stage (cfg0.slots t 0)
abbrev hq (t : Fin cfg0.N) : (mq t).IsWhole := hstage0_0 ((cfg0.slots t 0).cast nbuf0_0)
abbrev mk (t : Fin cfg0.N) : Memref sig .tc .vmem S1x1024x128 .f32 := win0_1.stage (cfg0.slots t 1)
abbrev hk (t : Fin cfg0.N) : (mk t).IsWhole := hstage0_1 ((cfg0.slots t 1).cast nbuf0_1)
abbrev mv (t : Fin cfg0.N) : Memref sig .tc .vmem S1x1024x128 .f32 := win0_2.stage (cfg0.slots t 2)
abbrev hv (t : Fin cfg0.N) : (mv t).IsWhole := hstage0_2 ((cfg0.slots t 2).cast nbuf0_2)
abbrev mo (t : Fin cfg0.N) : Memref sig .tc .vmem S1x1024x128 .f32 := win0_3.stage (cfg0.slots t 3)
abbrev ho (t : Fin cfg0.N) : (mo t).IsWhole := hstage0_3 ((cfg0.slots t 3).cast nbuf0_3)
/-- The accumulator: a scratch buffer of the kernel's own, carried from one position to the next. -/
abbrev accM : Memref sig .tc .vmem S1024x128 .f32 := Memref.whole cc0_scratch0
abbrev VA : View sig .tc .vmem S1024x128 .f32 := accM.view

/-- The region's invariant with the accumulator owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Causal

end
-- ==== Proof.Kernel.CaseFirst.lean ====
/-
  The body at a position where the accumulator is zeroed and the block's contribution added, and nothing is
  copied out (key block 0): on whole buffers holding the query, key and value blocks, the output buffer at
  contents it hands back untouched, and the accumulator at anything, the body runs to its end leaving the
  inputs as they were and the accumulator with two stores written, the zeros and then the sum.
-/
import proofs.«161130_j21603685499692_1_alg».proof.Proof.Kernel.Cases

set_option maxRecDepth 16384

noncomputable section

namespace Cert.Kernel.Causal

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the accumulator ends with (last store first), with the body's triple. -/
noncomputable def runFirst (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1024x128 .f32) (harg7 : arg7.IsWhole)
    (hz : zeroes i) (ha : adds i) (he : ¬emits i) (x0 x1 x2 : Vec F S1x1024x128 .f32) :
    { LS : List (View.Piece (Elt F) S1024x128 .f32) //
      ∀ (xi : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__rbf_causal_kernel i arg3 harg3 arg4 harg4 arg5 harg5 arg6 harg6 arg7 harg7) K } := by
  refine ⟨?_, fun xi E K => ?run⟩
  case run =>
    simp only [cc0__rbf_causal_kernel_eq_skeleton]; unfold cc0__rbf_causal_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hz | exact ha | exact he)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Causal

end
-- ==== Proof.Kernel.CaseSkip.lean ====
/-
  The body at the position above the diagonal (query block 0, key block 1): nothing is zeroed or added, and
  the accumulator — at the contents the position before left — is copied into the output buffer, which is
  thereby stored whole; the accumulator is handed back as found.
-/
import proofs.«161130_j21603685499692_1_alg».proof.Proof.Kernel.CaseFirst

set_option maxRecDepth 16384

noncomputable section

namespace Cert.Kernel.Causal

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the output buffer ends with, with the body's triple. -/
noncomputable def runSkip (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1024x128 .f32) (harg7 : arg7.IsWhole)
    (hz : ¬zeroes i) (ha : ¬adds i) (he : emits i) (x0 x1 x2 : Vec F S1x1024x128 .f32) (xs : Vec F S1024x128 .f32) :
    { LO : List (View.Piece (Elt F) S1x1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ owns (c : Thread nD τ) arg7 fullShare xs) -∗ K ⟨⟩))
          ⊢ wp frame (wpE (defs₀ (F := F)) Variants.none c none) E (cc0__rbf_causal_kernel i arg3 harg3 arg4 harg4 arg5 harg5 arg6 harg6 arg7 harg7) K } := by
  refine ⟨?_, fun E K => ?run⟩
  case run =>
    simp only [cc0__rbf_causal_kernel_eq_skeleton]; unfold cc0__rbf_causal_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hz | exact ha | exact he)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; isplitr; · ipureintro; exact harg7.read_unread _
    iexact HS

end Cert.Kernel.Causal

end
-- ==== Proof.Kernel.CaseLast.lean ====
/-
  The body at a diagonal block that is also the last key block (query block 1, key block 1): the block's
  contribution is added to the accumulator — at the contents the position before left — and the sum is copied
  into the output buffer; both are stored whole.
-/
import proofs.«161130_j21603685499692_1_alg».proof.Proof.Kernel.CaseSkip

set_option maxRecDepth 16384

noncomputable section

namespace Cert.Kernel.Causal

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the output buffer and the accumulator end with, with the body's triple. -/
noncomputable def runLast (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1024x128 .f32) (harg7 : arg7.IsWhole)
    (hz : ¬zeroes i) (ha : adds i) (he : emits i) (x0 x1 x2 : Vec F S1x1024x128 .f32) (xs : Vec F S1024x128 .f32) :
    Σ' (LO : List (View.Piece (Elt F) S1x1024x128 .f32)), { LS : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0__rbf_causal_kernel i arg3 harg3 arg4 harg4 arg5 harg5 arg6 harg6 arg7 harg7) K } := by
  refine ⟨?_, ?_, fun E K => ?run⟩
  case run =>
    simp only [cc0__rbf_causal_kernel_eq_skeleton]; unfold cc0__rbf_causal_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hz | exact ha | exact he)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Causal

end
-- ==== Proof.Kernel.Carry.lean ====
/-
  What the accumulator and the output buffer hold after the body at each position, by recursion on the
  position: at an even position (key block 0) the accumulator is what the zero-and-add run leaves over the
  position's query, key and value blocks; at a position ≡ 1 (mod 4) the accumulator is what the position before
  left and the output buffer is its copy; at a position ≡ 3 (mod 4) the accumulator is what the add run leaves
  over the blocks and what the position before left, and the output buffer is its copy. With these as proof
  data the body meets its obligation at every position, so the program runs to its end, faults nowhere and
  leaves its argument arrays unchanged.
-/
import proofs.«161130_j21603685499692_1_alg».proof.Proof.Kernel.CaseLast

set_option maxRecDepth 16384

noncomputable section

namespace Cert.Kernel.Causal

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each run leaves -/

/-- Nothing is stored into the output buffer at an even position; nothing reads this value. -/
def outNone : Vec F S1x1024x128 .f32 := VO.read (Elt F) (VO.writes (Elt F) VO.junk [])

theorem coverFirst (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1024x128 .f32) (harg7 : arg7.IsWhole) (hz : zeroes i) (ha : adds i) (he : ¬emits i) (x0 x1 x2 : Vec F S1x1024x128 .f32) (y : S1024x128.Idx) :
    ∃ pc ∈ (runFirst c i arg3 harg3 arg4 harg4 arg5 harg5 arg6 harg6 arg7 harg7 hz ha he x0 x1 x2).1, y ∈ pc.1.set :=
  View.cover_of_tiledL (runFirst c i arg3 harg3 arg4 harg4 arg5 harg5 arg6 harg6 arg7 harg7 hz ha he x0 x1 x2).1 S1024x128.size (by sl_kernel_rfl) y
/-- The accumulator after the zero-and-add run. -/
def accFirst (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1024x128 .f32) (harg7 : arg7.IsWhole) (hz : zeroes i) (ha : adds i) (he : ¬emits i) (x0 x1 x2 : Vec F S1x1024x128 .f32) : Vec F S1024x128 .f32 :=
  VA.read (Elt F) (VA.writes (Elt F) VA.junk (runFirst c i arg3 harg3 arg4 harg4 arg5 harg5 arg6 harg6 arg7 harg7 hz ha he x0 x1 x2).1)

theorem coverSkip (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1024x128 .f32) (harg7 : arg7.IsWhole) (hz : ¬zeroes i) (ha : ¬adds i) (he : emits i) (x0 x1 x2 : Vec F S1x1024x128 .f32) (xs : Vec F S1024x128 .f32) (y : S1x1024x128.Idx) :
    ∃ pc ∈ (runSkip c i arg3 harg3 arg4 harg4 arg5 harg5 arg6 harg6 arg7 harg7 hz ha he x0 x1 x2 xs).1, y ∈ pc.1.set :=
  View.cover_of_tiledL (runSkip c i arg3 harg3 arg4 harg4 arg5 harg5 arg6 harg6 arg7 harg7 hz ha he x0 x1 x2 xs).1 S1x1024x128.size (by sl_kernel_rfl) y
/-- The output buffer after the copy-only run. -/
def outSkip (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1024x128 .f32) (harg7 : arg7.IsWhole) (hz : ¬zeroes i) (ha : ¬adds i) (he : emits i) (x0 x1 x2 : Vec F S1x1024x128 .f32) (xs : Vec F S1024x128 .f32) : Vec F S1x1024x128 .f32 :=
  VO.read (Elt F) (VO.writes (Elt F) VO.junk (runSkip c i arg3 harg3 arg4 harg4 arg5 harg5 arg6 harg6 arg7 harg7 hz ha he x0 x1 x2 xs).1)

theorem coverLastO (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1024x128 .f32) (harg7 : arg7.IsWhole) (hz : ¬zeroes i) (ha : adds i) (he : emits i) (x0 x1 x2 : Vec F S1x1024x128 .f32) (xs : Vec F S1024x128 .f32) (y : S1x1024x128.Idx) :
    ∃ pc ∈ (runLast c i arg3 harg3 arg4 harg4 arg5 harg5 arg6 harg6 arg7 harg7 hz ha he x0 x1 x2 xs).1, y ∈ pc.1.set :=
  View.cover_of_tiledL (runLast c i arg3 harg3 arg4 harg4 arg5 harg5 arg6 harg6 arg7 harg7 hz ha he x0 x1 x2 xs).1 S1x1024x128.size (by sl_kernel_rfl) y
/-- The output buffer after the add-and-copy run. -/
def outLast (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1024x128 .f32) (harg7 : arg7.IsWhole) (hz : ¬zeroes i) (ha : adds i) (he : emits i) (x0 x1 x2 : Vec F S1x1024x128 .f32) (xs : Vec F S1024x128 .f32) : Vec F S1x1024x128 .f32 :=
  VO.read (Elt F) (VO.writes (Elt F) VO.junk (runLast c i arg3 harg3 arg4 harg4 arg5 harg5 arg6 harg6 arg7 harg7 hz ha he x0 x1 x2 xs).1)
theorem coverLastS (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1024x128 .f32) (harg7 : arg7.IsWhole) (hz : ¬zeroes i) (ha : adds i) (he : emits i) (x0 x1 x2 : Vec F S1x1024x128 .f32) (xs : Vec F S1024x128 .f32) (y : S1024x128.Idx) :
    ∃ pc ∈ (runLast c i arg3 harg3 arg4 harg4 arg5 harg5 arg6 harg6 arg7 harg7 hz ha he x0 x1 x2 xs).2.1, y ∈ pc.1.set :=
  View.cover_of_tiledL (runLast c i arg3 harg3 arg4 harg4 arg5 harg5 arg6 harg6 arg7 harg7 hz ha he x0 x1 x2 xs).2.1 S1024x128.size (by sl_kernel_rfl) y
/-- The accumulator after the add-and-copy run. -/
def accLast (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1024x128 .f32) (harg7 : arg7.IsWhole) (hz : ¬zeroes i) (ha : adds i) (he : emits i) (x0 x1 x2 : Vec F S1x1024x128 .f32) (xs : Vec F S1024x128 .f32) : Vec F S1024x128 .f32 :=
  VA.read (Elt F) (VA.writes (Elt F) VA.junk (runLast c i arg3 harg3 arg4 harg4 arg5 harg5 arg6 harg6 arg7 harg7 hz ha he x0 x1 x2 xs).2.1)

/-! ## The guards at a position, from its residue -/

theorem hz_even (t : Fin cfg0.N) (h0 : t.val % 2 = 0) : zeroes (grid0.coords t) := (zeroes_iff t).mpr h0
theorem ha_even (t : Fin cfg0.N) (h0 : t.val % 2 = 0) : adds (grid0.coords t) := (adds_iff t).mpr (by omega)
theorem he_even (t : Fin cfg0.N) (h0 : t.val % 2 = 0) : ¬emits (grid0.coords t) := fun h => by have := (emits_iff t).mp h; omega
theorem hz_odd (t : Fin cfg0.N) (h0 : ¬t.val % 2 = 0) : ¬zeroes (grid0.coords t) := fun h => h0 ((zeroes_iff t).mp h)
theorem he_odd (t : Fin cfg0.N) (h0 : ¬t.val % 2 = 0) : emits (grid0.coords t) := (emits_iff t).mpr (by omega)
theorem ha_skip (t : Fin cfg0.N) (h1 : t.val % 4 = 1) : ¬adds (grid0.coords t) := fun h => (adds_iff t).mp h h1
theorem ha_last (t : Fin cfg0.N) (h1 : ¬t.val % 4 = 1) : adds (grid0.coords t) := (adds_iff t).mpr h1

/-- The accumulator after an even position `t`. -/
abbrev firstAt (c : Dev nD) (t : Fin cfg0.N) (h0 : t.val % 2 = 0) : Vec F S1024x128 .f32 :=
  accFirst c (grid0.coords t) (mq t) (hq t) (mk t) (hk t) (mv t) (hv t) (mo t) (ho t) accM (Memref.isWhole_whole _) (hz_even t h0) (ha_even t h0) (he_even t h0) (iblk m c 0 t) (iblk m c 1 t) (iblk m c 2 t)
/-- The output buffer after a position ≡ 1 (mod 4), the accumulator found at `xs`. -/
abbrev skipOutAt (c : Dev nD) (t : Fin cfg0.N) (h0 : ¬t.val % 2 = 0) (h1 : t.val % 4 = 1) (xs : Vec F S1024x128 .f32) : Vec F S1x1024x128 .f32 :=
  outSkip c (grid0.coords t) (mq t) (hq t) (mk t) (hk t) (mv t) (hv t) (mo t) (ho t) accM (Memref.isWhole_whole _) (hz_odd t h0) (ha_skip t h1) (he_odd t h0) (iblk m c 0 t) (iblk m c 1 t) (iblk m c 2 t) xs
/-- The output buffer and the accumulator after a position ≡ 3 (mod 4), the accumulator found at `xs`. -/
abbrev lastOutAt (c : Dev nD) (t : Fin cfg0.N) (h0 : ¬t.val % 2 = 0) (h1 : ¬t.val % 4 = 1) (xs : Vec F S1024x128 .f32) : Vec F S1x1024x128 .f32 :=
  outLast c (grid0.coords t) (mq t) (hq t) (mk t) (hk t) (mv t) (hv t) (mo t) (ho t) accM (Memref.isWhole_whole _) (hz_odd t h0) (ha_last t h1) (he_odd t h0) (iblk m c 0 t) (iblk m c 1 t) (iblk m c 2 t) xs
abbrev lastAccAt (c : Dev nD) (t : Fin cfg0.N) (h0 : ¬t.val % 2 = 0) (h1 : ¬t.val % 4 = 1) (xs : Vec F S1024x128 .f32) : Vec F S1024x128 .f32 :=
  accLast c (grid0.coords t) (mq t) (hq t) (mk t) (hk t) (mv t) (hv t) (mo t) (ho t) accM (Memref.isWhole_whole _) (hz_odd t h0) (ha_last t h1) (he_odd t h0) (iblk m c 0 t) (iblk m c 1 t) (iblk m c 2 t) xs

/-! ## Position by position -/

/-- What the output buffer and the accumulator hold after the body at position `n`. -/
def carry (c : Dev nD) : (n : ℕ) → n < cfg0.N → Vec F S1x1024x128 .f32 × Vec F S1024x128 .f32
  | 0, hn => (outNone, firstAt m c ⟨0, hn⟩ (Nat.zero_mod _))
  | n + 1, hn =>
    if h0 : (n + 1) % 2 = 0 then
      (outNone, firstAt m c ⟨n + 1, hn⟩ h0)
    else
      if h1 : (n + 1) % 4 = 1 then
        (skipOutAt m c ⟨n + 1, hn⟩ h0 h1 (carry c n (Nat.lt_of_succ_lt hn)).2, (carry c n (Nat.lt_of_succ_lt hn)).2)
      else
        (lastOutAt m c ⟨n + 1, hn⟩ h0 h1 (carry c n (Nat.lt_of_succ_lt hn)).2, lastAccAt m c ⟨n + 1, hn⟩ h0 h1 (carry c n (Nat.lt_of_succ_lt hn)).2)

theorem carry_first (c : Dev nD) (t : Fin cfg0.N) (h0 : t.val % 2 = 0) :
    carry m c t.val t.isLt = (outNone, firstAt m c t h0) := by
  obtain ⟨n, hn⟩ := t
  cases n with
  | zero => exact rfl
  | succ n => exact (dif_pos h0).trans rfl

theorem carry_skip (c : Dev nD) (t : Fin cfg0.N) (h0 : ¬t.val % 2 = 0) (h1 : t.val % 4 = 1) :
    carry m c t.val t.isLt = (skipOutAt m c t h0 h1 (carry m c (t.val - 1) (Nat.lt_of_le_of_lt (Nat.sub_le _ _) t.isLt)).2,
      (carry m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

theorem carry_last (c : Dev nD) (t : Fin cfg0.N) (h0 : ¬t.val % 2 = 0) (h1 : ¬t.val % 4 = 1) :
    carry m c t.val t.isLt = (lastOutAt m c t h0 h1 (carry m c (t.val - 1) (Nat.lt_of_le_of_lt (Nat.sub_le _ _) t.isLt)).2,
      lastAccAt m c t h0 h1 (carry m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- The region's invariant before position `n`: before the first position the accumulator is at anything; afterwards
    it is at what the position before left. -/
def PhiS (c : Dev nD) : (n : ℕ) → n ≤ cfg0.N → sProp 𝕄
  | 0, _ => Pipeline.ΦA spec0 c
  | n + 1, hn => iprop(iprop(owns (c : Thread nD τ) accM fullShare ((carry m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((carry m c n hn).2)) ∗ (∃ r, prngReg c r)) := rfl
theorem PhiS_pos (c : Dev nD) (n : ℕ) (h : n ≤ cfg0.N) (hz : n ≠ 0) :
    PhiS m c n h = iprop(iprop(owns (c : Thread nD τ) accM fullShare ((carry m c (n - 1) (by omega)).2)) ∗ (∃ r, prngReg c r)) := by
  cases n with
  | zero => exact absurd rfl hz
  | succ n => rfl

/-! ## The proof data -/

/-- The arrays as the region finds them; after the body each input buffer at its block, the output buffer and the
    accumulator as `carry` says; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (carry m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_v (c : Dev nD) (t : Fin cfg0.N) : (dats m 0 c).after 2 t = iblk m c 2 t := by dsimp only [dats]
theorem after_o (c : Dev nD) (t : Fin cfg0.N) : (dats m 0 c).after 3 t = (carry m c t.val t.isLt).1 := by dsimp only [dats]

/-- Each input's current staging buffer holds its block at every position, fetched there or not. -/
theorem before_q (c : Dev nD) (t : Fin cfg0.N) (d) : (dats m 0 c).before 0 t d = iblk m c 0 t :=
  before0_0_of m (dats m 0 c) (A_eq m c 0) (after_q m c) t d
theorem before_k (c : Dev nD) (t : Fin cfg0.N) (d) : (dats m 0 c).before 1 t d = iblk m c 1 t :=
  before0_1_of m (dats m 0 c) (A_eq m c 1) (after_k m c) t d
theorem before_v (c : Dev nD) (t : Fin cfg0.N) (d) : (dats m 0 c).before 2 t d = iblk m c 2 t :=
  before0_2_of m (dats m 0 c) (A_eq m c 2) (after_v m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (mq t) fullShare ((dats m 0 c).before 0 t d))
    ∗ (∃ d, owns (c : Thread nD τ) (mk t) fullShare ((dats m 0 c).before 1 t d))
    ∗ (∃ d, owns (c : Thread nD τ) (mv t) fullShare ((dats m 0 c).before 2 t d))
    ∗ (∃ d, owns (c : Thread nD τ) (mo t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any position: the residue of the position says which of the three runs applies; the invariant hands
    the run the accumulator at what the position before left (at anything at the first position) and takes it back at
    this position's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_k, before_v]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 2 = 0
  · -- zero and add; nothing copied out
    rw [show (dats m 0 c).leavesExact 0 t = owns (c : Thread nD τ) (mq t) fullShare ((dats m 0 c).after 0 t) from by
      unfold Dat.leavesExact; rw [live_q t], after_q]
    rw [show (dats m 0 c).leavesExact 1 t = owns (c : Thread nD τ) (mk t) fullShare ((dats m 0 c).after 1 t) from by
      unfold Dat.leavesExact; rw [live_k t], after_k]
    rw [show (dats m 0 c).leavesExact 2 t = owns (c : Thread nD τ) (mv t) fullShare ((dats m 0 c).after 2 t) from by
      unfold Dat.leavesExact; rw [live_v t], after_v]
    rw [Dat.leavesExact_idle (dats m 0 c) 3 t (idle_out t (he_even t h0)) (noflush_out t (he_even t h0))]
    rw [carry_first m c t h0]
    unfold firstAt accFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((runFirst c (grid0.coords t) _ _ _ _ _ _ _ _ _ _ (hz_even t h0) (ha_even t h0) (he_even t h0) (iblk m c 0 t) (iblk m c 1 t) (iblk m c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((runFirst c (grid0.coords t) _ _ _ _ _ _ _ _ _ _ (hz_even t h0) (ha_even t h0) (he_even t h0) (iblk m c 0 t) (iblk m c 1 t) (iblk m c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    rw [show (dats m 0 c).leavesExact 0 t = owns (c : Thread nD τ) (mq t) fullShare ((dats m 0 c).after 0 t) from by
      unfold Dat.leavesExact; rw [live_q t], after_q]
    rw [show (dats m 0 c).leavesExact 1 t = owns (c : Thread nD τ) (mk t) fullShare ((dats m 0 c).after 1 t) from by
      unfold Dat.leavesExact; rw [live_k t], after_k]
    rw [show (dats m 0 c).leavesExact 2 t = owns (c : Thread nD τ) (mv t) fullShare ((dats m 0 c).after 2 t) from by
      unfold Dat.leavesExact; rw [live_v t], after_v]
    rw [show (dats m 0 c).leavesExact 3 t = owns (c : Thread nD τ) (mo t) fullShare ((dats m 0 c).after 3 t) from by
      unfold Dat.leavesExact; rw [live_out t (he_odd t h0)], after_o]
    rw [PhiS_castSucc m c t, PhiS_pos m c _ _ hz]
    by_cases h1 : t.val % 4 = 1
    · -- above the diagonal: only the copy
      rw [carry_skip m c t h0 h1]
      unfold skipOutAt outSkip; (try dsimp only)
      iintro ⟨⟨HS, Hg⟩, Ho, ⟨%d0, H0⟩, ⟨%d1, H1⟩, ⟨%d2, H2⟩, ⟨%d3, H3⟩⟩
      iapply ((runSkip c (grid0.coords t) _ _ _ _ _ _ _ _ _ _ (hz_odd t h0) (ha_skip t h1) (he_odd t h0) (iblk m c 0 t) (iblk m c 1 t) (iblk m c 2 t) _).2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, HS⟩
      isplitl [HS Hg]
      · isplitl [HS]; · iexact HS
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverSkip c _ _ _ _ _ _ _ _ _ _ _ _ _ _ _ _ _ _)
    · -- the diagonal block at the last key step: add, then copy
      rw [carry_last m c t h0 h1]
      unfold lastOutAt lastAccAt outLast accLast; (try dsimp only)
      iintro ⟨⟨HS, Hg⟩, Ho, ⟨%d0, H0⟩, ⟨%d1, H1⟩, ⟨%d2, H2⟩, ⟨%d3, H3⟩⟩
      iapply ((runLast c (grid0.coords t) _ _ _ _ _ _ _ _ _ _ (hz_odd t h0) (ha_last t h1) (he_odd t h0) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (coverLastS c _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastO c _ _ _ _ _ _ _ _ _ _ _ _ _ _ _ _ _ _)

/-- The library's body obligation, at every position. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any position but the first the invariant gives the launch's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of the program terminates, faulting nowhere, with every array of the pipeline at
    what the library computes from the proof data and every other unscoped buffer as the later host lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Causal

end
-- ==== Proof.KernelIdeal.Cases.lean ====
/-
  The grid of the causal attention kernel is (head, query block, key block) = 32 × 2 × 2, a point's position
  t = 4·head + 2·(query block) + (key block). The body has three guarded regions: it zeroes the accumulator at
  key block 0, it adds the block's contribution when key block ≤ query block (the blocks on or below the
  diagonal), and it copies the accumulator into the output block at key block 1. Over the grid only three
  combinations occur: positions ≡ 0, 2 (mod 4) zero and add; position ≡ 1 (mod 4) — the block above the
  diagonal — only copies out; position ≡ 3 (mod 4) adds and copies out. This module states the three guards,
  decides each over the grid, and names the buffers the body runs on.
-/
import proofs.«161130_j21603685499692_1_alg».proof.Proof.Gen.KernelIdeal.Frame
import proofs.«161130_j21603685499692_1_alg».proof.Proof.Gen.KernelIdeal.Skeleton

set_option maxRecDepth 16384

noncomputable section

namespace Cert.KernelIdeal.Causal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three guards, as the body computes them from the grid coordinates -/

/-- "key block = 0": the accumulator is zeroed. -/
abbrev zeroes (i : grid0.Coords) : Prop :=
  (Scalar.cmpi .ne (Scalar.extui (Scalar.cmpi .eq (BitVec.ofNat 32 (i 2).val) 0#32)) 0#32) = 1#1
/-- It holds exactly at the even positions. -/
theorem zeroes_iff : ∀ t : Fin cfg0.N, zeroes (grid0.coords t) ↔ t.val % 2 = 0 :=
  (by decide +kernel : ∀ t : Fin grid0.N, zeroes (grid0.coords t) ↔ t.val % 2 = 0)

/-- "key block ≤ query block": the block is on or below the diagonal and its contribution is added. -/
abbrev adds (i : grid0.Coords) : Prop :=
  (Scalar.cmpi .ne (Scalar.extui (Scalar.cmpi .sle (BitVec.ofNat 32 (i 2).val) (BitVec.ofNat 32 (i 1).val))) 0#32) = 1#1
/-- It fails exactly at query block 0, key block 1: the positions ≡ 1 (mod 4). -/
theorem adds_iff : ∀ t : Fin cfg0.N, adds (grid0.coords t) ↔ ¬ t.val % 4 = 1 :=
  (by decide +kernel : ∀ t : Fin grid0.N, adds (grid0.coords t) ↔ ¬ t.val % 4 = 1)

/-- "key block = 1" (the last one): the accumulator is copied into the output block. -/
abbrev emits (i : grid0.Coords) : Prop := k0_cond3 i = 1#1
/-- It holds exactly at the odd positions. -/
theorem emits_iff : ∀ t : Fin cfg0.N, emits (grid0.coords t) ↔ t.val % 2 = 1 :=
  (by decide +kernel : ∀ t : Fin grid0.N, emits (grid0.coords t) ↔ t.val % 2 = 1)

/-! ## Where the windows are idle -/

theorem live_q : ∀ t : Fin cfg0.N, cfg0.idle 0 (grid0.coords t) = false := by decide +kernel
theorem live_k : ∀ t : Fin cfg0.N, cfg0.idle 1 (grid0.coords t) = false := by decide +kernel
theorem live_v : ∀ t : Fin cfg0.N, cfg0.idle 2 (grid0.coords t) = false := by decide +kernel
/-- Where nothing is copied out the output window is idle, -/
theorem idle_out : ∀ t : Fin cfg0.N, ¬emits (grid0.coords t) → cfg0.idle 3 (grid0.coords t) = true := by decide +kernel
/-- and its block is not written back there; -/
theorem noflush_out : ∀ t : Fin cfg0.N, ¬emits (grid0.coords t) → (cfg0.win 3).flush t = false := by decide +kernel
/-- where the accumulator is copied out it is live. -/
theorem live_out : ∀ t : Fin cfg0.N, emits (grid0.coords t) → cfg0.idle 3 (grid0.coords t) = false := by decide +kernel

/-! ## The buffers the body runs on -/

/-- One staging buffer of the output window, through which its contents are stated. -/
abbrev VO : View sig .tc .vmem S1x1024x128 .f32 := (Memref.whole cc0_stg3_0 : Memref sig .tc .vmem S1x1024x128 .f32).view
/-- The current staging buffers at position `t`: the query block's, the key block's, the value block's, the output block's. -/
abbrev mq (t : Fin cfg0.N) : Memref sig .tc .vmem S1x1024x128 .f32 := win0_0.stage (cfg0.slots t 0)
abbrev hq (t : Fin cfg0.N) : (mq t).IsWhole := hstage0_0 ((cfg0.slots t 0).cast nbuf0_0)
abbrev mk (t : Fin cfg0.N) : Memref sig .tc .vmem S1x1024x128 .f32 := win0_1.stage (cfg0.slots t 1)
abbrev hk (t : Fin cfg0.N) : (mk t).IsWhole := hstage0_1 ((cfg0.slots t 1).cast nbuf0_1)
abbrev mv (t : Fin cfg0.N) : Memref sig .tc .vmem S1x1024x128 .f32 := win0_2.stage (cfg0.slots t 2)
abbrev hv (t : Fin cfg0.N) : (mv t).IsWhole := hstage0_2 ((cfg0.slots t 2).cast nbuf0_2)
abbrev mo (t : Fin cfg0.N) : Memref sig .tc .vmem S1x1024x128 .f32 := win0_3.stage (cfg0.slots t 3)
abbrev ho (t : Fin cfg0.N) : (mo t).IsWhole := hstage0_3 ((cfg0.slots t 3).cast nbuf0_3)
/-- The accumulator: a scratch buffer of the kernel's own, carried from one position to the next. -/
abbrev accM : Memref sig .tc .vmem S1024x128 .f32 := Memref.whole cc0_scratch0
abbrev VA : View sig .tc .vmem S1024x128 .f32 := accM.view

/-- The region's invariant with the accumulator owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Causal

end
-- ==== Proof.KernelIdeal.CaseFirst.lean ====
/-
  The body at a position where the accumulator is zeroed and the block's contribution added, and nothing is
  copied out (key block 0): on whole buffers holding the query, key and value blocks, the output buffer at
  contents it hands back untouched, and the accumulator at anything, the body runs to its end leaving the
  inputs as they were and the accumulator with two stores written, the zeros and then the sum.
-/
import proofs.«161130_j21603685499692_1_alg».proof.Proof.KernelIdeal.Cases

set_option maxRecDepth 16384

noncomputable section

namespace Cert.KernelIdeal.Causal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the accumulator ends with (last store first), with the body's triple. -/
noncomputable def runFirst (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1024x128 .f32) (harg7 : arg7.IsWhole)
    (hz : zeroes i) (ha : adds i) (he : ¬emits i) (x0 x1 x2 : Vec F S1x1024x128 .f32) :
    { LS : List (View.Piece (Elt F) S1024x128 .f32) //
      ∀ (xi : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__rbf_causal_kernel i arg3 harg3 arg4 harg4 arg5 harg5 arg6 harg6 arg7 harg7) K } := by
  refine ⟨?_, fun xi E K => ?run⟩
  case run =>
    simp only [cc0__rbf_causal_kernel_eq_skeleton]; unfold cc0__rbf_causal_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hz | exact ha | exact he)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Causal

end
-- ==== Proof.KernelIdeal.CaseSkip.lean ====
/-
  The body at the position above the diagonal (query block 0, key block 1): nothing is zeroed or added, and
  the accumulator — at the contents the position before left — is copied into the output buffer, which is
  thereby stored whole; the accumulator is handed back as found.
-/
import proofs.«161130_j21603685499692_1_alg».proof.Proof.KernelIdeal.CaseFirst

set_option maxRecDepth 16384

noncomputable section

namespace Cert.KernelIdeal.Causal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the output buffer ends with, with the body's triple. -/
noncomputable def runSkip (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1024x128 .f32) (harg7 : arg7.IsWhole)
    (hz : ¬zeroes i) (ha : ¬adds i) (he : emits i) (x0 x1 x2 : Vec F S1x1024x128 .f32) (xs : Vec F S1024x128 .f32) :
    { LO : List (View.Piece (Elt F) S1x1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ owns (c : Thread nD τ) arg7 fullShare xs) -∗ K ⟨⟩))
          ⊢ wp frame (wpE (defs₀ (F := F)) Variants.none c none) E (cc0__rbf_causal_kernel i arg3 harg3 arg4 harg4 arg5 harg5 arg6 harg6 arg7 harg7) K } := by
  refine ⟨?_, fun E K => ?run⟩
  case run =>
    simp only [cc0__rbf_causal_kernel_eq_skeleton]; unfold cc0__rbf_causal_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hz | exact ha | exact he)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; isplitr; · ipureintro; exact harg7.read_unread _
    iexact HS

end Cert.KernelIdeal.Causal

end
-- ==== Proof.KernelIdeal.CaseLast.lean ====
/-
  The body at a diagonal block that is also the last key block (query block 1, key block 1): the block's
  contribution is added to the accumulator — at the contents the position before left — and the sum is copied
  into the output buffer; both are stored whole.
-/
import proofs.«161130_j21603685499692_1_alg».proof.Proof.KernelIdeal.CaseSkip

set_option maxRecDepth 16384

noncomputable section

namespace Cert.KernelIdeal.Causal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the output buffer and the accumulator end with, with the body's triple. -/
noncomputable def runLast (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1024x128 .f32) (harg7 : arg7.IsWhole)
    (hz : ¬zeroes i) (ha : adds i) (he : emits i) (x0 x1 x2 : Vec F S1x1024x128 .f32) (xs : Vec F S1024x128 .f32) :
    Σ' (LO : List (View.Piece (Elt F) S1x1024x128 .f32)), { LS : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0__rbf_causal_kernel i arg3 harg3 arg4 harg4 arg5 harg5 arg6 harg6 arg7 harg7) K } := by
  refine ⟨?_, ?_, fun E K => ?run⟩
  case run =>
    simp only [cc0__rbf_causal_kernel_eq_skeleton]; unfold cc0__rbf_causal_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hz | exact ha | exact he)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Causal

end
-- ==== Proof.KernelIdeal.Carry.lean ====
/-
  What the accumulator and the output buffer hold after the body at each position, by recursion on the
  position: at an even position (key block 0) the accumulator is what the zero-and-add run leaves over the
  position's query, key and value blocks; at a position ≡ 1 (mod 4) the accumulator is what the position before
  left and the output buffer is its copy; at a position ≡ 3 (mod 4) the accumulator is what the add run leaves
  over the blocks and what the position before left, and the output buffer is its copy. With these as proof
  data the body meets its obligation at every position, so the program runs to its end, faults nowhere and
  leaves its argument arrays unchanged.
-/
import proofs.«161130_j21603685499692_1_alg».proof.Proof.KernelIdeal.CaseLast

set_option maxRecDepth 16384

noncomputable section

namespace Cert.KernelIdeal.Causal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each run leaves -/

/-- Nothing is stored into the output buffer at an even position; nothing reads this value. -/
def outNone : Vec F S1x1024x128 .f32 := VO.read (Elt F) (VO.writes (Elt F) VO.junk [])

theorem coverFirst (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1024x128 .f32) (harg7 : arg7.IsWhole) (hz : zeroes i) (ha : adds i) (he : ¬emits i) (x0 x1 x2 : Vec F S1x1024x128 .f32) (y : S1024x128.Idx) :
    ∃ pc ∈ (runFirst c i arg3 harg3 arg4 harg4 arg5 harg5 arg6 harg6 arg7 harg7 hz ha he x0 x1 x2).1, y ∈ pc.1.set :=
  View.cover_of_tiledL (runFirst c i arg3 harg3 arg4 harg4 arg5 harg5 arg6 harg6 arg7 harg7 hz ha he x0 x1 x2).1 S1024x128.size (by sl_kernel_rfl) y
/-- The accumulator after the zero-and-add run. -/
def accFirst (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1024x128 .f32) (harg7 : arg7.IsWhole) (hz : zeroes i) (ha : adds i) (he : ¬emits i) (x0 x1 x2 : Vec F S1x1024x128 .f32) : Vec F S1024x128 .f32 :=
  VA.read (Elt F) (VA.writes (Elt F) VA.junk (runFirst c i arg3 harg3 arg4 harg4 arg5 harg5 arg6 harg6 arg7 harg7 hz ha he x0 x1 x2).1)

theorem coverSkip (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1024x128 .f32) (harg7 : arg7.IsWhole) (hz : ¬zeroes i) (ha : ¬adds i) (he : emits i) (x0 x1 x2 : Vec F S1x1024x128 .f32) (xs : Vec F S1024x128 .f32) (y : S1x1024x128.Idx) :
    ∃ pc ∈ (runSkip c i arg3 harg3 arg4 harg4 arg5 harg5 arg6 harg6 arg7 harg7 hz ha he x0 x1 x2 xs).1, y ∈ pc.1.set :=
  View.cover_of_tiledL (runSkip c i arg3 harg3 arg4 harg4 arg5 harg5 arg6 harg6 arg7 harg7 hz ha he x0 x1 x2 xs).1 S1x1024x128.size (by sl_kernel_rfl) y
/-- The output buffer after the copy-only run. -/
def outSkip (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1024x128 .f32) (harg7 : arg7.IsWhole) (hz : ¬zeroes i) (ha : ¬adds i) (he : emits i) (x0 x1 x2 : Vec F S1x1024x128 .f32) (xs : Vec F S1024x128 .f32) : Vec F S1x1024x128 .f32 :=
  VO.read (Elt F) (VO.writes (Elt F) VO.junk (runSkip c i arg3 harg3 arg4 harg4 arg5 harg5 arg6 harg6 arg7 harg7 hz ha he x0 x1 x2 xs).1)

theorem coverLastO (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1024x128 .f32) (harg7 : arg7.IsWhole) (hz : ¬zeroes i) (ha : adds i) (he : emits i) (x0 x1 x2 : Vec F S1x1024x128 .f32) (xs : Vec F S1024x128 .f32) (y : S1x1024x128.Idx) :
    ∃ pc ∈ (runLast c i arg3 harg3 arg4 harg4 arg5 harg5 arg6 harg6 arg7 harg7 hz ha he x0 x1 x2 xs).1, y ∈ pc.1.set :=
  View.cover_of_tiledL (runLast c i arg3 harg3 arg4 harg4 arg5 harg5 arg6 harg6 arg7 harg7 hz ha he x0 x1 x2 xs).1 S1x1024x128.size (by sl_kernel_rfl) y
/-- The output buffer after the add-and-copy run. -/
def outLast (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1024x128 .f32) (harg7 : arg7.IsWhole) (hz : ¬zeroes i) (ha : adds i) (he : emits i) (x0 x1 x2 : Vec F S1x1024x128 .f32) (xs : Vec F S1024x128 .f32) : Vec F S1x1024x128 .f32 :=
  VO.read (Elt F) (VO.writes (Elt F) VO.junk (runLast c i arg3 harg3 arg4 harg4 arg5 harg5 arg6 harg6 arg7 harg7 hz ha he x0 x1 x2 xs).1)
theorem coverLastS (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1024x128 .f32) (harg7 : arg7.IsWhole) (hz : ¬zeroes i) (ha : adds i) (he : emits i) (x0 x1 x2 : Vec F S1x1024x128 .f32) (xs : Vec F S1024x128 .f32) (y : S1024x128.Idx) :
    ∃ pc ∈ (runLast c i arg3 harg3 arg4 harg4 arg5 harg5 arg6 harg6 arg7 harg7 hz ha he x0 x1 x2 xs).2.1, y ∈ pc.1.set :=
  View.cover_of_tiledL (runLast c i arg3 harg3 arg4 harg4 arg5 harg5 arg6 harg6 arg7 harg7 hz ha he x0 x1 x2 xs).2.1 S1024x128.size (by sl_kernel_rfl) y
/-- The accumulator after the add-and-copy run. -/
def accLast (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1024x128 .f32) (harg7 : arg7.IsWhole) (hz : ¬zeroes i) (ha : adds i) (he : emits i) (x0 x1 x2 : Vec F S1x1024x128 .f32) (xs : Vec F S1024x128 .f32) : Vec F S1024x128 .f32 :=
  VA.read (Elt F) (VA.writes (Elt F) VA.junk (runLast c i arg3 harg3 arg4 harg4 arg5 harg5 arg6 harg6 arg7 harg7 hz ha he x0 x1 x2 xs).2.1)

/-! ## The guards at a position, from its residue -/

theorem hz_even (t : Fin cfg0.N) (h0 : t.val % 2 = 0) : zeroes (grid0.coords t) := (zeroes_iff t).mpr h0
theorem ha_even (t : Fin cfg0.N) (h0 : t.val % 2 = 0) : adds (grid0.coords t) := (adds_iff t).mpr (by omega)
theorem he_even (t : Fin cfg0.N) (h0 : t.val % 2 = 0) : ¬emits (grid0.coords t) := fun h => by have := (emits_iff t).mp h; omega
theorem hz_odd (t : Fin cfg0.N) (h0 : ¬t.val % 2 = 0) : ¬zeroes (grid0.coords t) := fun h => h0 ((zeroes_iff t).mp h)
theorem he_odd (t : Fin cfg0.N) (h0 : ¬t.val % 2 = 0) : emits (grid0.coords t) := (emits_iff t).mpr (by omega)
theorem ha_skip (t : Fin cfg0.N) (h1 : t.val % 4 = 1) : ¬adds (grid0.coords t) := fun h => (adds_iff t).mp h h1
theorem ha_last (t : Fin cfg0.N) (h1 : ¬t.val % 4 = 1) : adds (grid0.coords t) := (adds_iff t).mpr h1

/-- The accumulator after an even position `t`. -/
abbrev firstAt (c : Dev nD) (t : Fin cfg0.N) (h0 : t.val % 2 = 0) : Vec F S1024x128 .f32 :=
  accFirst c (grid0.coords t) (mq t) (hq t) (mk t) (hk t) (mv t) (hv t) (mo t) (ho t) accM (Memref.isWhole_whole _) (hz_even t h0) (ha_even t h0) (he_even t h0) (iblk m c 0 t) (iblk m c 1 t) (iblk m c 2 t)
/-- The output buffer after a position ≡ 1 (mod 4), the accumulator found at `xs`. -/
abbrev skipOutAt (c : Dev nD) (t : Fin cfg0.N) (h0 : ¬t.val % 2 = 0) (h1 : t.val % 4 = 1) (xs : Vec F S1024x128 .f32) : Vec F S1x1024x128 .f32 :=
  outSkip c (grid0.coords t) (mq t) (hq t) (mk t) (hk t) (mv t) (hv t) (mo t) (ho t) accM (Memref.isWhole_whole _) (hz_odd t h0) (ha_skip t h1) (he_odd t h0) (iblk m c 0 t) (iblk m c 1 t) (iblk m c 2 t) xs
/-- The output buffer and the accumulator after a position ≡ 3 (mod 4), the accumulator found at `xs`. -/
abbrev lastOutAt (c : Dev nD) (t : Fin cfg0.N) (h0 : ¬t.val % 2 = 0) (h1 : ¬t.val % 4 = 1) (xs : Vec F S1024x128 .f32) : Vec F S1x1024x128 .f32 :=
  outLast c (grid0.coords t) (mq t) (hq t) (mk t) (hk t) (mv t) (hv t) (mo t) (ho t) accM (Memref.isWhole_whole _) (hz_odd t h0) (ha_last t h1) (he_odd t h0) (iblk m c 0 t) (iblk m c 1 t) (iblk m c 2 t) xs
abbrev lastAccAt (c : Dev nD) (t : Fin cfg0.N) (h0 : ¬t.val % 2 = 0) (h1 : ¬t.val % 4 = 1) (xs : Vec F S1024x128 .f32) : Vec F S1024x128 .f32 :=
  accLast c (grid0.coords t) (mq t) (hq t) (mk t) (hk t) (mv t) (hv t) (mo t) (ho t) accM (Memref.isWhole_whole _) (hz_odd t h0) (ha_last t h1) (he_odd t h0) (iblk m c 0 t) (iblk m c 1 t) (iblk m c 2 t) xs

/-! ## Position by position -/

/-- What the output buffer and the accumulator hold after the body at position `n`. -/
def carry (c : Dev nD) : (n : ℕ) → n < cfg0.N → Vec F S1x1024x128 .f32 × Vec F S1024x128 .f32
  | 0, hn => (outNone, firstAt m c ⟨0, hn⟩ (Nat.zero_mod _))
  | n + 1, hn =>
    if h0 : (n + 1) % 2 = 0 then
      (outNone, firstAt m c ⟨n + 1, hn⟩ h0)
    else
      if h1 : (n + 1) % 4 = 1 then
        (skipOutAt m c ⟨n + 1, hn⟩ h0 h1 (carry c n (Nat.lt_of_succ_lt hn)).2, (carry c n (Nat.lt_of_succ_lt hn)).2)
      else
        (lastOutAt m c ⟨n + 1, hn⟩ h0 h1 (carry c n (Nat.lt_of_succ_lt hn)).2, lastAccAt m c ⟨n + 1, hn⟩ h0 h1 (carry c n (Nat.lt_of_succ_lt hn)).2)

theorem carry_first (c : Dev nD) (t : Fin cfg0.N) (h0 : t.val % 2 = 0) :
    carry m c t.val t.isLt = (outNone, firstAt m c t h0) := by
  obtain ⟨n, hn⟩ := t
  cases n with
  | zero => exact rfl
  | succ n => exact (dif_pos h0).trans rfl

theorem carry_skip (c : Dev nD) (t : Fin cfg0.N) (h0 : ¬t.val % 2 = 0) (h1 : t.val % 4 = 1) :
    carry m c t.val t.isLt = (skipOutAt m c t h0 h1 (carry m c (t.val - 1) (Nat.lt_of_le_of_lt (Nat.sub_le _ _) t.isLt)).2,
      (carry m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

theorem carry_last (c : Dev nD) (t : Fin cfg0.N) (h0 : ¬t.val % 2 = 0) (h1 : ¬t.val % 4 = 1) :
    carry m c t.val t.isLt = (lastOutAt m c t h0 h1 (carry m c (t.val - 1) (Nat.lt_of_le_of_lt (Nat.sub_le _ _) t.isLt)).2,
      lastAccAt m c t h0 h1 (carry m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- The region's invariant before position `n`: before the first position the accumulator is at anything; afterwards
    it is at what the position before left. -/
def PhiS (c : Dev nD) : (n : ℕ) → n ≤ cfg0.N → sProp 𝕄
  | 0, _ => Pipeline.ΦA spec0 c
  | n + 1, hn => iprop(iprop(owns (c : Thread nD τ) accM fullShare ((carry m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((carry m c n hn).2)) ∗ (∃ r, prngReg c r)) := rfl
theorem PhiS_pos (c : Dev nD) (n : ℕ) (h : n ≤ cfg0.N) (hz : n ≠ 0) :
    PhiS m c n h = iprop(iprop(owns (c : Thread nD τ) accM fullShare ((carry m c (n - 1) (by omega)).2)) ∗ (∃ r, prngReg c r)) := by
  cases n with
  | zero => exact absurd rfl hz
  | succ n => rfl

/-! ## The proof data -/

/-- The arrays as the region finds them; after the body each input buffer at its block, the output buffer and the
    accumulator as `carry` says; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (carry m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_v (c : Dev nD) (t : Fin cfg0.N) : (dats m 0 c).after 2 t = iblk m c 2 t := by dsimp only [dats]
theorem after_o (c : Dev nD) (t : Fin cfg0.N) : (dats m 0 c).after 3 t = (carry m c t.val t.isLt).1 := by dsimp only [dats]

/-- Each input's current staging buffer holds its block at every position, fetched there or not. -/
theorem before_q (c : Dev nD) (t : Fin cfg0.N) (d) : (dats m 0 c).before 0 t d = iblk m c 0 t :=
  before0_0_of m (dats m 0 c) (A_eq m c 0) (after_q m c) t d
theorem before_k (c : Dev nD) (t : Fin cfg0.N) (d) : (dats m 0 c).before 1 t d = iblk m c 1 t :=
  before0_1_of m (dats m 0 c) (A_eq m c 1) (after_k m c) t d
theorem before_v (c : Dev nD) (t : Fin cfg0.N) (d) : (dats m 0 c).before 2 t d = iblk m c 2 t :=
  before0_2_of m (dats m 0 c) (A_eq m c 2) (after_v m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (mq t) fullShare ((dats m 0 c).before 0 t d))
    ∗ (∃ d, owns (c : Thread nD τ) (mk t) fullShare ((dats m 0 c).before 1 t d))
    ∗ (∃ d, owns (c : Thread nD τ) (mv t) fullShare ((dats m 0 c).before 2 t d))
    ∗ (∃ d, owns (c : Thread nD τ) (mo t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any position: the residue of the position says which of the three runs applies; the invariant hands
    the run the accumulator at what the position before left (at anything at the first position) and takes it back at
    this position's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_k, before_v]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 2 = 0
  · -- zero and add; nothing copied out
    rw [show (dats m 0 c).leavesExact 0 t = owns (c : Thread nD τ) (mq t) fullShare ((dats m 0 c).after 0 t) from by
      unfold Dat.leavesExact; rw [live_q t], after_q]
    rw [show (dats m 0 c).leavesExact 1 t = owns (c : Thread nD τ) (mk t) fullShare ((dats m 0 c).after 1 t) from by
      unfold Dat.leavesExact; rw [live_k t], after_k]
    rw [show (dats m 0 c).leavesExact 2 t = owns (c : Thread nD τ) (mv t) fullShare ((dats m 0 c).after 2 t) from by
      unfold Dat.leavesExact; rw [live_v t], after_v]
    rw [Dat.leavesExact_idle (dats m 0 c) 3 t (idle_out t (he_even t h0)) (noflush_out t (he_even t h0))]
    rw [carry_first m c t h0]
    unfold firstAt accFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((runFirst c (grid0.coords t) _ _ _ _ _ _ _ _ _ _ (hz_even t h0) (ha_even t h0) (he_even t h0) (iblk m c 0 t) (iblk m c 1 t) (iblk m c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((runFirst c (grid0.coords t) _ _ _ _ _ _ _ _ _ _ (hz_even t h0) (ha_even t h0) (he_even t h0) (iblk m c 0 t) (iblk m c 1 t) (iblk m c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    rw [show (dats m 0 c).leavesExact 0 t = owns (c : Thread nD τ) (mq t) fullShare ((dats m 0 c).after 0 t) from by
      unfold Dat.leavesExact; rw [live_q t], after_q]
    rw [show (dats m 0 c).leavesExact 1 t = owns (c : Thread nD τ) (mk t) fullShare ((dats m 0 c).after 1 t) from by
      unfold Dat.leavesExact; rw [live_k t], after_k]
    rw [show (dats m 0 c).leavesExact 2 t = owns (c : Thread nD τ) (mv t) fullShare ((dats m 0 c).after 2 t) from by
      unfold Dat.leavesExact; rw [live_v t], after_v]
    rw [show (dats m 0 c).leavesExact 3 t = owns (c : Thread nD τ) (mo t) fullShare ((dats m 0 c).after 3 t) from by
      unfold Dat.leavesExact; rw [live_out t (he_odd t h0)], after_o]
    rw [PhiS_castSucc m c t, PhiS_pos m c _ _ hz]
    by_cases h1 : t.val % 4 = 1
    · -- above the diagonal: only the copy
      rw [carry_skip m c t h0 h1]
      unfold skipOutAt outSkip; (try dsimp only)
      iintro ⟨⟨HS, Hg⟩, Ho, ⟨%d0, H0⟩, ⟨%d1, H1⟩, ⟨%d2, H2⟩, ⟨%d3, H3⟩⟩
      iapply ((runSkip c (grid0.coords t) _ _ _ _ _ _ _ _ _ _ (hz_odd t h0) (ha_skip t h1) (he_odd t h0) (iblk m c 0 t) (iblk m c 1 t) (iblk m c 2 t) _).2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, HS⟩
      isplitl [HS Hg]
      · isplitl [HS]; · iexact HS
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverSkip c _ _ _ _ _ _ _ _ _ _ _ _ _ _ _ _ _ _)
    · -- the diagonal block at the last key step: add, then copy
      rw [carry_last m c t h0 h1]
      unfold lastOutAt lastAccAt outLast accLast; (try dsimp only)
      iintro ⟨⟨HS, Hg⟩, Ho, ⟨%d0, H0⟩, ⟨%d1, H1⟩, ⟨%d2, H2⟩, ⟨%d3, H3⟩⟩
      iapply ((runLast c (grid0.coords t) _ _ _ _ _ _ _ _ _ _ (hz_odd t h0) (ha_last t h1) (he_odd t h0) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (coverLastS c _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastO c _ _ _ _ _ _ _ _ _ _ _ _ _ _ _ _ _ _)

/-- The library's body obligation, at every position. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any position but the first the invariant gives the launch's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of the program terminates, faulting nowhere, with every array of the pipeline at
    what the library computes from the proof data and every other unscoped buffer as the later host lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Causal

end
-- ==== Proof.KernelIdeal.Pieces.lean ====
/-
  What each run of the body leaves, as values: the accumulator after a zero-and-add position is the block's
  contribution added to the zero block; after an add-and-copy position it is the contribution added to what the
  accumulator held; the output block is a copy of the accumulator.  Each is read off the run's covering stores.
-/
import proofs.«161130_j21603685499692_1_alg».proof.Proof.KernelIdeal.Carry
import Idealize.ShloMosaic.Lib.Pipeline.Value

set_option maxRecDepth 16384

noncomputable section

namespace Cert.KernelIdeal.Causal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulating store's value: the accumulator `acc` plus the contribution of the key block `x1` and value block
    `x2` to the query block `x0` at grid point `i`. -/
abbrev step (i : grid0.Coords) (x0 x1 x2 : Vec F S1x1024x128 .f32) (acc : Vec F S1024x128 .f32) : Vec F S1024x128 .f32 :=
  k0_pay2 (k0_pay4 x2) (k0_pay5 (BitVec.ofNat 32 (i 1).val) (BitVec.ofNat 32 (i 2).val) x0 x1) (constant S1024x128 .f32 0x00000000#32) acc

theorem accFirst_eq (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1024x128 .f32) (harg7 : arg7.IsWhole) (hz : zeroes i) (ha : adds i) (he : ¬emits i) (x0 x1 x2 : Vec F S1x1024x128 .f32) :
    accFirst c i arg3 harg3 arg4 harg4 arg5 harg5 arg6 harg6 arg7 harg7 hz ha he x0 x1 x2 = step i x0 x1 x2 k0_pay1 := by
  unfold accFirst
  rw [View.read_writes_eq_canon _ _ _ (coverFirst c i arg3 harg3 arg4 harg4 arg5 harg5 arg6 harg6 arg7 harg7 hz ha he x0 x1 x2)]
  unfold runFirst
  dsimp only
  sl_unfold_words
  rw [View.canon_cons_unit_zero (S := S1024x128) hz2, View.readCov_unit_zero (S := S1024x128) _ hz2]
  simp only [View.readAt_eq_ld, harg3.read_unread, harg4.read_unread, harg5.read_unread, View.ld_unit_zero (S := S1x1024x128) hz3]

theorem accLast_eq (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1024x128 .f32) (harg7 : arg7.IsWhole) (hz : ¬zeroes i) (ha : adds i) (he : emits i) (x0 x1 x2 : Vec F S1x1024x128 .f32) (xs : Vec F S1024x128 .f32) :
    accLast c i arg3 harg3 arg4 harg4 arg5 harg5 arg6 harg6 arg7 harg7 hz ha he x0 x1 x2 xs = step i x0 x1 x2 xs := by
  unfold accLast
  rw [View.read_writes_eq_canon _ _ _ (coverLastS c i arg3 harg3 arg4 harg4 arg5 harg5 arg6 harg6 arg7 harg7 hz ha he x0 x1 x2 xs)]
  unfold runLast
  dsimp only
  sl_unfold_words
  rw [View.canon_unit_zero (S := S1024x128) hz2]
  simp only [View.readAt_eq_ld, harg3.read_unread, harg4.read_unread, harg5.read_unread, harg7.read_unread,
    View.ld_unit_zero (S := S1x1024x128) hz3, View.ld_unit_zero (S := S1024x128) hz2]

theorem outLast_eq (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1024x128 .f32) (harg7 : arg7.IsWhole) (hz : ¬zeroes i) (ha : adds i) (he : emits i) (x0 x1 x2 : Vec F S1x1024x128 .f32) (xs : Vec F S1024x128 .f32) :
    outLast c i arg3 harg3 arg4 harg4 arg5 harg5 arg6 harg6 arg7 harg7 hz ha he x0 x1 x2 xs = k0_pay3 (step i x0 x1 x2 xs) := by
  unfold outLast
  rw [View.read_writes_eq_canon _ _ _ (coverLastO c i arg3 harg3 arg4 harg4 arg5 harg5 arg6 harg6 arg7 harg7 hz ha he x0 x1 x2 xs)]
  unfold runLast
  dsimp only
  sl_unfold_words
  rw [View.canon_unit_zero (S := S1x1024x128) hz3, View.readCov_unit_zero (S := S1024x128) _ hz2]
  simp only [View.readAt_eq_ld, harg3.read_unread, harg4.read_unread, harg5.read_unread, harg7.read_unread,
    View.ld_unit_zero (S := S1x1024x128) hz3, View.ld_unit_zero (S := S1024x128) hz2]

theorem outSkip_eq (c : Dev nD) (i : grid0.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1024x128 .f32) (harg7 : arg7.IsWhole) (hz : ¬zeroes i) (ha : ¬adds i) (he : emits i) (x0 x1 x2 : Vec F S1x1024x128 .f32) (xs : Vec F S1024x128 .f32) :
    outSkip c i arg3 harg3 arg4 harg4 arg5 harg5 arg6 harg6 arg7 harg7 hz ha he x0 x1 x2 xs = k0_pay3 xs := by
  unfold outSkip
  rw [View.read_writes_eq_canon _ _ _ (coverSkip c i arg3 harg3 arg4 harg4 arg5 harg5 arg6 harg6 arg7 harg7 hz ha he x0 x1 x2 xs)]
  unfold runSkip
  dsimp only
  sl_unfold_words
  rw [View.canon_unit_zero (S := S1x1024x128) hz3]
  simp only [View.readAt_eq_ld, harg7.read_unread, View.ld_unit_zero (S := S1024x128) hz2]

end Cert.KernelIdeal.Causal

end
-- ==== Proof.LibSignedCompare.lean ====
/-
  A signed comparison of two 32-bit words that hold small natural numbers is the comparison of the numbers: a
  natural below 2³¹ read as a signed word is itself, so "≥" on the words (as a one-bit result equal to 1) is "≤" the
  other way on the naturals.  This is what a causal mask "row ≥ column" built from two index grids comes to.
-/
import Idealize.ShloMosaic.Lib.Affine

namespace Cert.Lib.SignedCompare

open Idealize.ShloMosaic

/-- A natural below 2³¹, as a 32-bit word read signed, is itself. -/
theorem toInt_small (a : ℕ) (h : a < 2147483648) : (BitVec.ofNat 32 a).toInt = (a : Int) := by
  rw [BitVec.toInt_eq_toNat_cond, BitVec.toNat_ofNat]
  have e : a % 2 ^ 32 = a := Nat.mod_eq_of_lt (by omega)
  rw [e]
  split
  · rfl
  · rename_i hh; exfalso; apply hh; omega

/-- "a ≥ b" on the words of two naturals below 2³¹, compared signed, holds exactly when b ≤ a. -/
theorem sge_small (a b : ℕ) (ha : a < 2147483648) (hb : b < 2147483648) :
    IntOp.cmpi .sge (BitVec.ofNat 32 a) (BitVec.ofNat 32 b) = 1#1 ↔ b ≤ a := by
  rw [IntOp.cmpi_sge, toInt_small a ha, toInt_small b hb]; omega

end Cert.Lib.SignedCompare
-- ==== Proof.RbfSpec.lean ====
/-
  Causal attention with a Gaussian (radial basis) weight and no normalization, as one function of the three
  argument arrays q, k, v of shape [2, 16, 2048, 128] over the extended reals:

      out[b, h, m, d] = Σ_{n < 2048} [n ≤ m] · exp((c₂ · ⟨q_m, k_n⟩ − c₁ · ⟨q_m, q_m⟩) − c₁ · ⟨k_n, k_n⟩) · v[b, h, n, d]

  where q_m and k_n are rows of head (b, h), c₁ is the single-precision word nearest 1/√128 and c₂ its double (both
  kept as words: they are the same words on both sides and are never evaluated).  The row's sum splits into the
  keys n < 1024 and the keys 1024 ≤ n; for a query row m < 1024 every term of the second part has [n ≤ m] false
  and is 0 · v = 0.  Only commutativity and associativity of + on the extended reals are used, so nothing here
  needs the inputs to be finite.
-/
import Idealize.ShloMosaic.PureOps.Ideal.Laws
import Idealize.ShloMosaic.Lib.ValueIdx
import Idealize.ShloMosaic.Lib.Affine
import proofs.«161130_j21603685499692_1_alg».proof.Proof.LibSignedCompare

noncomputable section

namespace Cert.Rbf

open Idealize.ShloMosaic Idealize.ShloMosaic.ValueIdx Cert.Lib.SignedCompare

abbrev A4 : Shape := ⟨4, ![2, 16, 2048, 128]⟩

/-- 2/√128 and 1/√128 as the single-precision words both programs carry. -/
abbrev c2 : EReal := Ideal.ofBits .f32 0x3E3504F3#32
abbrev c1 : EReal := Ideal.ofBits .f32 0x3DB504F3#32

/-- The weight of a key row for a query row: exp(−c₁‖q − k‖²) in the grouping both programs compute it. -/
def weight (q k : Fin 128 → EReal) : EReal :=
  Ideal.exp ((c2 * ∑ e : Fin 128, q e * k e - c1 * ∑ e : Fin 128, q e * q e) - c1 * ∑ e : Fin 128, k e * k e)

/-- Key `n`'s term of query row `m`'s sum: the weight where the key is not after the query, else zero, times the value. -/
def term (m : ℕ) (q : Fin 128 → EReal) (n : ℕ) (k : Fin 128 → EReal) (v : EReal) : EReal :=
  (if n ≤ m then weight q k else 0) * v

theorem term_congr {m m' n n' : ℕ} (h : n ≤ m ↔ n' ≤ m') (q k : Fin 128 → EReal) (v : EReal) :
    term m q n k v = term m' q n' k v := by
  unfold term; rw [if_congr h rfl rfl]

theorem term_after {m n : ℕ} (h : m < n) (q k : Fin 128 → EReal) (v : EReal) : term m q n k v = 0 := by
  unfold term; rw [if_neg (by omega), zero_mul]

/-- The result, index by index. -/
def G (Q K V : A4.Idx → EReal) : A4.Idx → EReal := fun i =>
  ∑ n : Fin 2048, term (i 2).val (fun e => Q (ix4 (i 0) (i 1) (i 2) e)) n.val (fun e => K (ix4 (i 0) (i 1) n e))
    (V (ix4 (i 0) (i 1) n (i 3)))

/-- The keys below 1024 and the keys from 1024 on. -/
abbrev lo (c : Fin 1024) : Fin 2048 := ⟨c.val, by have := c.isLt; omega⟩
abbrev hi (c : Fin 1024) : Fin 2048 := ⟨1024 + c.val, by have := c.isLt; omega⟩

/-- A sum over the 2048 keys is the sum over the first 1024 plus the sum over the last 1024. -/
theorem sum_split (f : Fin 2048 → EReal) : ∑ n : Fin 2048, f n = ∑ c : Fin 1024, f (lo c) + ∑ c : Fin 1024, f (hi c) :=
  Fin.sum_univ_add (a := 1024) (b := 1024) f

/-- A query row of the first block sees only the first block of keys. -/
theorem row_lo (r : Fin 1024) (q : Fin 128 → EReal) (k : Fin 2048 → Fin 128 → EReal) (v : Fin 2048 → EReal) :
    ∑ n : Fin 2048, term r.val q n.val (k n) (v n) = 0 + ∑ c : Fin 1024, term r.val q c.val (k (lo c)) (v (lo c)) := by
  rw [sum_split, zero_add]
  have h0 : ∑ c : Fin 1024, term r.val q (hi c).val (k (hi c)) (v (hi c)) = 0 :=
    Finset.sum_eq_zero fun c _ => term_after (by have := r.isLt; show r.val < 1024 + c.val; omega) _ _ _
  rw [h0, add_zero]

/-- A query row of the second block sees both blocks of keys. -/
theorem row_hi (r : Fin 1024) (q : Fin 128 → EReal) (k : Fin 2048 → Fin 128 → EReal) (v : Fin 2048 → EReal) :
    ∑ n : Fin 2048, term (1024 + r.val) q n.val (k n) (v n)
      = (0 + ∑ c : Fin 1024, term (1024 + r.val) q c.val (k (lo c)) (v (lo c)))
        + ∑ c : Fin 1024, term (1024 + r.val) q (1024 + c.val) (k (hi c)) (v (hi c)) := by
  rw [sum_split, zero_add]

/-- What the first query block's accumulator ends at: zero plus the first key block's terms, with the block offsets
    written as the kernel writes them (block number times 1024 plus the position in the block). -/
theorem first_rows (r : Fin 1024) (q : Fin 128 → EReal) (kf : Fin 2048 → Fin 128 → EReal) (vf : Fin 2048 → EReal)
    (z : EReal) (hz : z = 0) (a b mm : ℕ) (ha : a = 0) (hb : b = 0) (hm : mm = r.val) :
    z + ∑ c : Fin 1024, term (a * 1024 + r.val) q (b * 1024 + c.val) (kf (lo c)) (vf (lo c))
      = ∑ n : Fin 2048, term mm q n.val (kf n) (vf n) := by
  subst ha hb hm hz
  rw [row_lo]
  simp only [Nat.zero_mul, Nat.zero_add]

/-- What the second query block's accumulator ends at: zero plus the first key block's terms, plus the second's. -/
theorem second_rows (r : Fin 1024) (q : Fin 128 → EReal) (kf : Fin 2048 → Fin 128 → EReal) (vf : Fin 2048 → EReal)
    (z : EReal) (hz : z = 0) (a a' b b' mm : ℕ) (ha : a = 1) (ha' : a' = 1) (hb : b = 0) (hb' : b' = 1) (hm : mm = 1024 + r.val) :
    (z + ∑ c : Fin 1024, term (a * 1024 + r.val) q (b * 1024 + c.val) (kf (lo c)) (vf (lo c)))
        + ∑ c : Fin 1024, term (a' * 1024 + r.val) q (b' * 1024 + c.val) (kf (hi c)) (vf (hi c))
      = ∑ n : Fin 2048, term mm q n.val (kf n) (vf n) := by
  subst ha ha' hb hb' hm hz
  rw [row_hi]
  simp only [Nat.zero_mul, Nat.zero_add, Nat.one_mul]

/-! ## The programs' mask: a signed comparison of small row and column numbers -/

/-- Row r of block number q, as the kernel computes it in 32-bit words, is the word of q · 1024 + r. -/
theorem offs (r q : ℕ) (hr : r < 1024) (hq : q < 2) :
    IntOp.addi (BitVec.ofNat 32 r) (Scalar.muli (BitVec.ofNat 32 q) 1024#32) = BitVec.ofNat 32 (q * 1024 + r) := by
  apply BitVec.eq_of_toNat_eq
  simp only [IntOp.addi, Scalar.muli, IntOp.muli, BitVec.toNat_add, BitVec.toNat_mul, BitVec.toNat_ofNat]
  omega

/-- A value kept where the mask holds and replaced by zero elsewhere, times `v`, is the term. -/
theorem select_term (a b : ℕ) (ha : a < 2147483648) (hb : b < 2147483648) (q k : Fin 128 → EReal) (v z : EReal) (hz : z = 0) :
    Scalar.select (IntOp.cmpi .sge (BitVec.ofNat 32 a) (BitVec.ofNat 32 b)) (weight q k) z * v = term a q b k v := by
  unfold term
  by_cases h : b ≤ a
  · rw [if_pos h, (sge_small a b ha hb).mpr h, ValueIdx.select_one]
  · rw [if_neg h, ValueIdx.eq_zero_of_ne_one (fun e => h ((sge_small a b ha hb).mp e)), ValueIdx.select_zero, hz]

end Cert.Rbf

end
-- ==== Proof.LibColumnLayout.lean ====
/-
  Two layout operations read at an index given by coordinates: the column forms a `keepdims` row reduction meets.
  A vector of `a` row values becomes an `[a, 1]` column by a shape cast, and that column is repeated along a new
  second axis of extent `b` by a broadcast; read at `(i, j)` the result is the vector's value at `i`, whatever `j`.
  General in the extents; stated over indices built from coordinates so that they apply by unification.
-/
import Idealize.ShloMosaic.Lib.ValueLayout

namespace Cert.Lib.ColumnLayout

open Idealize.ShloMosaic Idealize.ShloMosaic.ValueIdx

variable {α : Type}

/-- An `[a]` array cast to the column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the unit axis is read at `0`,
    the row axis at `p` (when `a` is itself `1` the row coordinate is `0` either way). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnLayout
-- ==== Proof.LibReduceLayout.lean ====
/-
  Sums and one more column form, read at an index given by coordinates, over the extended reals.
    * a sum along the second axis of an `[a, n]` array, read at row `p`, is the sum over `k` of the entries `(p, k)`;
    * a sum along the first axis of a column `[a, 1]`, read at its one index, is the sum over `p` of the entries `(p, 0)`;
    * a column `[a, 1]` transposed to the row `[1, a]` and repeated along a new first axis of extent `b` reads, at
      `(p, q)`, the column's entry in row `q`.
  General in the extents; stated over indices built from coordinates so that they apply by unification.  The proofs of
  the reductions' side conditions are variables, so that whatever proof a program's text carries unifies with them.
-/
import Idealize.ShloMosaic.Lib.ValueLayout
import Idealize.ShloMosaic.PureOps.Ideal.Laws

namespace Cert.Lib.ReduceLayout

open Idealize.ShloMosaic Idealize.ShloMosaic.ValueIdx

/-- A sum along the second axis, read at row `p`. -/
theorem sum_axis1_apply {a n : ℕ} (v : FVec Ideal ⟨2, ![a, n]⟩ .f32) (acc : BitVec 32)
    (h : (⟨2, ![a, n]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin n, v (ix2 p k) := by
  refine (Ideal.multiReduction_add_single v acc h hφ hacc (ix1 p)).trans ?_
  refine Finset.sum_congr rfl fun k _ => congrArg v (funext fun d => ?_)
  match d with
  | ⟨0, _⟩ => rfl
  | ⟨1, _⟩ => rfl

/-- A sum along the first axis of a column, read at its one index. -/
theorem sum_axis0_col_apply {a : ℕ} (v : FVec Ideal ⟨2, ![a, 1]⟩ .f32) (acc : BitVec 32)
    (h : (⟨2, ![a, 1]⟩ : Shape).Reduces [0] ⟨1, ![1]⟩) (hφ : FKind.Formats .f32) (hacc : acc = FKind.add.neutral .f32 hφ)
    (y : (⟨1, ![1]⟩ : Shape).Idx) :
    multiReduction .add [0] ⟨1, ![1]⟩ v acc h hφ hacc y = ∑ p : Fin a, v (ix2 p (0 : Fin 1)) := by
  refine (Ideal.multiReduction_add_single v acc h hφ hacc y).trans ?_
  refine Finset.sum_congr rfl fun p _ => congrArg v (funext fun d => ?_)
  match d with
  | ⟨0, _⟩ => rfl
  | ⟨1, _⟩ =>
    have h1 : (h.lift y p (1 : Fin 2)).val < 1 := (h.lift y p (1 : Fin 2)).isLt
    exact Fin.ext (by show (h.lift y p (1 : Fin 2)).val = 0; omega)

variable {α : Type}

/-- A column turned into a row and repeated over `b` rows reads, at `(p, q)`, the column's entry in row `q`. -/
theorem broadcastTo_transpose_col_apply {a b : ℕ} (v : (⟨2, ![a, 1]⟩ : Shape).Idx → α)
    (ht : (⟨2, ![a, 1]⟩ : Shape).Transposes [1, 0] ⟨2, ![1, a]⟩) (hb : (⟨2, ![1, a]⟩ : Shape).Broadcasts ⟨2, ![b, a]⟩)
    (p : Fin b) (q : Fin a) :
    broadcastTo ⟨2, ![b, a]⟩ (transpose ⟨2, ![1, a]⟩ [1, 0] v ht) hb (ix2 p q) = v (ix2 q (0 : Fin 1)) :=
  (broadcastTo_1b_ab_apply _ hb p q).trans (transpose_ix2_apply v ht (0 : Fin 1) q)

end Cert.Lib.ReduceLayout
-- ==== Proof.KernelIdeal.Block.lean ====
/-
  One grid step's arithmetic at the ideal instance, read at an index.  For a query block, a key block and a value
  block (each [1, 1024, 128]) and the step's block offsets, the weight matrix at (r, c) is the mask "row offset + r ≥
  column offset + c" selecting between the weight of key row c for query row r and zero; and the accumulating
  store's value at (r, d) is the accumulator's entry plus the sum over the 1024 keys of weight times value.  The
  changes of format on the way into the two matrix products are the identity here.
-/
import proofs.«161130_j21603685499692_1_alg».proof.Proof.Gen.KernelIdeal.Skeleton
import proofs.«161130_j21603685499692_1_alg».proof.Proof.RbfSpec
import proofs.«161130_j21603685499692_1_alg».proof.Proof.LibColumnLayout
import proofs.«161130_j21603685499692_1_alg».proof.Proof.LibReduceLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Block

open Cert.KernelIdeal Cert.KernelIdeal.Gen
open Idealize.ShloMosaic Idealize.ShloMosaic.ValueIdx
open Cert.Lib.ColumnLayout Cert.Lib.ReduceLayout

theorem qk_apply_l0 (i : S1024x1024.Idx) (q : dot_S1024x128_S128x1024_S1024x1024_1_0_0_1_n_n.contr.Idx) : (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem qk_apply_l1 (i : S1024x1024.Idx) (q : dot_S1024x128_S128x1024_S1024x1024_1_0_0_1_n_n.contr.Idx) : (dot_S1024x128_S128x1024_S1024x1024_1_0_0_1_n_n.lhsIdx i q 1).val = (q ⟨0, by decide⟩).val :=
  dot_S1024x128_S128x1024_S1024x1024_1_0_0_1_n_n.lhsIdx_val_of_single rfl i q
theorem qk_apply_r0 (i : S1024x1024.Idx) (q : dot_S1024x128_S128x1024_S1024x1024_1_0_0_1_n_n.contr.Idx) : (dot_S1024x128_S128x1024_S1024x1024_1_0_0_1_n_n.rhsIdx i q 0).val = (q ⟨0, by decide⟩).val :=
  dot_S1024x128_S128x1024_S1024x1024_1_0_0_1_n_n.rhsIdx_val_of_single rfl i q
theorem qk_apply_r1 (i : S1024x1024.Idx) (q : dot_S1024x128_S128x1024_S1024x1024_1_0_0_1_n_n.contr.Idx) : (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The product of the query block with the transposed key block, into a zero accumulator: entry (r, c) is the sum over the 128 features of the products. -/
theorem qk_apply {φ₁ φ₂ : FTy} (l : FVec Ideal S1024x128 φ₁) (rt : FVec Ideal S128x1024 φ₂) (r : Fin 1024) (c : Fin 1024) :
    matmul dot_S1024x128_S128x1024_S1024x1024_1_0_0_1_n_n none l rt (constant S1024x1024 .f32 0x00000000#32) (ix2 r c) = ∑ e : Fin 128, l (ix2 r e) * rt (ix2 e c) := by
  simp only [matmul]
  rw [Ideal.matmul_constant_zero_apply, ← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 r c) ((contrEquiv1 dot_S1024x128_S128x1024_S1024x1024_1_0_0_1_n_n 128 rfl rfl).symm k) = ix2 r k := funext fun a => Fin.ext (by
    match a with
    | ⟨0, _⟩ => exact qk_apply_l0 _ _
    | ⟨1, _⟩ => exact (qk_apply_l1 _ _).trans hk)
  have er : dot_S1024x128_S128x1024_S1024x1024_1_0_0_1_n_n.rhsIdx (ix2 r c) ((contrEquiv1 dot_S1024x128_S128x1024_S1024x1024_1_0_0_1_n_n 128 rfl rfl).symm k) = ix2 k c := funext fun a => Fin.ext (by
    match a with
    | ⟨0, _⟩ => exact (qk_apply_r0 _ _).trans hk
    | ⟨1, _⟩ => exact qk_apply_r1 _ _)
  rw [el, er]

theorem pv_apply_l0 (i : S1024x128.Idx) (q : dot_S1024x1024_S1024x128_S1024x128_1_0_0_1_n_n.contr.Idx) : (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem pv_apply_l1 (i : S1024x128.Idx) (q : dot_S1024x1024_S1024x128_S1024x128_1_0_0_1_n_n.contr.Idx) : (dot_S1024x1024_S1024x128_S1024x128_1_0_0_1_n_n.lhsIdx i q 1).val = (q ⟨0, by decide⟩).val :=
  dot_S1024x1024_S1024x128_S1024x128_1_0_0_1_n_n.lhsIdx_val_of_single rfl i q
theorem pv_apply_r0 (i : S1024x128.Idx) (q : dot_S1024x1024_S1024x128_S1024x128_1_0_0_1_n_n.contr.Idx) : (dot_S1024x1024_S1024x128_S1024x128_1_0_0_1_n_n.rhsIdx i q 0).val = (q ⟨0, by decide⟩).val :=
  dot_S1024x1024_S1024x128_S1024x128_1_0_0_1_n_n.rhsIdx_val_of_single rfl i q
theorem pv_apply_r1 (i : S1024x128.Idx) (q : dot_S1024x1024_S1024x128_S1024x128_1_0_0_1_n_n.contr.Idx) : (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The product of the weights with the value block, into a zero accumulator: entry (r, d) is the sum over the 1024 keys of weight times value. -/
theorem pv_apply {φ₁ φ₂ : FTy} (l : FVec Ideal S1024x1024 φ₁) (rt : FVec Ideal S1024x128 φ₂) (r : Fin 1024) (c : Fin 128) :
    matmul dot_S1024x1024_S1024x128_S1024x128_1_0_0_1_n_n none l rt (constant S1024x128 .f32 0x00000000#32) (ix2 r c) = ∑ e : Fin 1024, l (ix2 r e) * rt (ix2 e c) := by
  simp only [matmul]
  rw [Ideal.matmul_constant_zero_apply, ← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 r c) ((contrEquiv1 dot_S1024x1024_S1024x128_S1024x128_1_0_0_1_n_n 1024 rfl rfl).symm k) = ix2 r k := funext fun a => Fin.ext (by
    match a with
    | ⟨0, _⟩ => exact pv_apply_l0 _ _
    | ⟨1, _⟩ => exact (pv_apply_l1 _ _).trans hk)
  have er : dot_S1024x1024_S1024x128_S1024x128_1_0_0_1_n_n.rhsIdx (ix2 r c) ((contrEquiv1 dot_S1024x1024_S1024x128_S1024x128_1_0_0_1_n_n 1024 rfl rfl).symm k) = ix2 k c := funext fun a => Fin.ext (by
    match a with
    | ⟨0, _⟩ => exact (pv_apply_r0 _ _).trans hk
    | ⟨1, _⟩ => exact pv_apply_r1 _ _)
  rw [el, er]

/-! ## The layout steps over this kernel's own shapes -/

theorem cmpi_at (p : CmpIPredicate) (x y : IVec S1024x1024 32) (i : S1024x1024.Idx) : cmpi p x y i = IntOp.cmpi p (x i) (y i) := rfl
theorem addi_at (x y : IVec S1024x1024 32) (i : S1024x1024.Idx) : addi x y i = IntOp.addi (x i) (y i) := rfl
theorem exp_at (x : FVec Ideal S1024x1024 .f32) (i : S1024x1024.Idx) : exp x i = Ideal.exp (x i) := rfl

/-- The row number and the column number of an entry of the [1024, 1024] weight matrix. -/
theorem iota_row (r c : Fin 1024) : iota .tc S1024x1024 32 [0] iota_S1024x1024_d0_w32 (ix2 r c) = BitVec.ofNat 32 r.val :=
  iota_single_apply .tc S1024x1024 32 0 iota_S1024x1024_d0_w32 (ix2 r c)
theorem iota_col (r c : Fin 1024) : iota .tc S1024x1024 32 [1] iota_S1024x1024_d1_w32 (ix2 r c) = BitVec.ofNat 32 c.val :=
  iota_single_apply .tc S1024x1024 32 1 iota_S1024x1024_d1_w32 (ix2 r c)

/-- A row's sum of squares: the lane sum of a [1024, 128] array at row r. -/
theorem row_sum (y : FVec Ideal S1024x128 .f32) (hφ : FKind.Formats .f32) (hacc : (0x00000000#32 : BitVec 32) = 0x00000000#32) (r : Fin 1024) :
    multiReduction .add [1] S1024 y 0x00000000#32 reduces_S1024x128_S1024 hφ hacc (ix1 r) = ∑ e : Fin 128, y (ix2 r e) :=
  sum_axis1_apply y _ _ hφ hacc r

/-- The key block transposed, and a column turned into a row. -/
theorem tr_keys {φ : FTy} (y : FVec Ideal S1024x128 φ) (e : Fin 128) (c : Fin 1024) :
    transpose S128x1024 [1, 0] y transposes_S1024x128_p1_0_S128x1024 (ix2 e c) = y (ix2 c e) := transpose_ix2_apply y _ e c
theorem tr_col (y : FVec Ideal S1024x1 .f32) (u : Fin 1) (c : Fin 1024) :
    transpose S1x1024 [1, 0] y transposes_S1024x1_p1_0_S1x1024 (ix2 u c) = y (ix2 c u) := transpose_ix2_apply y _ u c

/-! ## The weight matrix and the accumulating store -/

set_option backward.isDefEq.respectTransparency.types false in
/-- The weight matrix of one grid step at (r, c); `a1`, `a2` are the step's query and key block numbers as words. -/
theorem weights_apply (a1 a2 : BitVec 32) (x0 x1 : Vec Ideal S1x1024x128 .f32) (r c : Fin 1024) :
    k0_pay5 (F := Ideal) a1 a2 x0 x1 (ix2 r c)
      = Scalar.select (IntOp.cmpi .sge (IntOp.addi (BitVec.ofNat 32 r.val) (Scalar.muli a1 1024#32))
            (IntOp.addi (BitVec.ofNat 32 c.val) (Scalar.muli a2 1024#32)))
          (Cert.Rbf.weight (fun e => x0 (ix3 (0 : Fin 1) r e)) (fun e => x1 (ix3 (0 : Fin 1) c e)))
          (Ideal.ofBits .f32 0x00000000#32) := by
  simp only [k0_pay5, truncf_apply, select_apply, cmpi_at, addi_at, exp_at, subf_apply, mulf_apply, broadcast_apply,
    iota_row, iota_col, qk_apply, tr_keys, tr_col, shapeCast_1ab_ab_apply,
    broadcastTo_a1_ab_apply, shapeCast_a_a1_apply, broadcastTo_1b_ab_apply, Ideal.ofBits_def, Cert.Rbf.weight]
  rw [iota_row, iota_col, tr_col]
  simp only [shapeCast_a_a1_apply]
  rw [row_sum, row_sum]
  simp only [mulf_apply, shapeCast_1ab_ab_apply]
  have hT : ∀ e : Fin 128, transpose S128x1024 [1, 0] (truncf (F := Ideal) .bf16 (shapeCast S1024x128 x1 shapeCasts_S1x1024x128_S1024x128) bitsLt_bf16_f32)
      transposes_S1024x128_p1_0_S128x1024 (ix2 e c) = x1 (ix3 (0 : Fin 1) c e) :=
    fun e => (tr_keys _ e c).trans (shapeCast_1ab_ab_apply x1 _ c e)
  rw [Finset.sum_congr rfl fun e _ => congrArg (x0 (ix3 (0 : Fin 1) r e) * ·) (hT e)]

/-- The accumulating store at (r, d): the accumulator's entry plus the weighted sum of the value block's column d. -/
theorem step_apply (P : FVec Ideal S1024x1024 .bf16) (x2 : Vec Ideal S1x1024x128 .f32) (acc : Vec Ideal S1024x128 .f32) (r : Fin 1024) (d : Fin 128) :
    k0_pay2 (F := Ideal) (k0_pay4 x2) P (constant S1024x128 .f32 0x00000000#32) acc (ix2 r d)
      = acc (ix2 r d) + ∑ c : Fin 1024, P (ix2 r c) * x2 (ix3 (0 : Fin 1) c d) := by
  simp only [k0_pay2, k0_pay4, shapeCast_self, addf_apply, pv_apply, truncf_apply, shapeCast_1ab_ab_apply]

/-- The zero block. -/
theorem zero_apply (i : S1024x128.Idx) : k0_pay1 (F := Ideal) i = 0 := by
  simp only [k0_pay1, shapeCast_self, broadcast_apply]
  exact Ideal.ofBits_zero_f32

/-- The copy into the output block: entry (0, r, d) is the accumulator's (r, d). -/
theorem copy_apply (acc : Vec Ideal S1024x128 .f32) (u : Fin 1) (r : Fin 1024) (d : Fin 128) :
    k0_pay3 (F := Ideal) acc (ix3 u r d) = acc (ix2 r d) := by
  simp only [k0_pay3, shapeCast_ab_1ab_apply]

end Cert.KernelIdeal.Block

end
-- ==== Proof.KernelIdeal.Final.lean ====
/-
  From the blocks to the array.  The output block a position writes back is a copy of the accumulator; unfolding the
  position-by-position data at the two kinds of writing position gives, for a row r of query block 0, zero plus the
  terms of key block 0, and for a row of query block 1, zero plus the terms of key block 0 plus those of key block 1 —
  the full row sum of the specification in both cases.  A block of a staged array at a position is read off the
  argument with the two leading axes merged (head = 16·b + h), and the output blocks at the odd positions tile the
  result array; the reshape back to four axes then gives the specification itself.
-/
import proofs.«161130_j21603685499692_1_alg».proof.Proof.KernelIdeal.Pieces
import proofs.«161130_j21603685499692_1_alg».proof.Proof.KernelIdeal.Block
import proofs.«161130_j21603685499692_1_alg».proof.Proof.RbfSpec
import Idealize.ShloMosaic.Lib.Pipeline.Value
import Idealize.ShloMosaic.Lib.StableHlo.Run

set_option maxRecDepth 16384

noncomputable section

namespace Cert.KernelIdeal.Causal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Rbf Cert.KernelIdeal.Block

variable (m : (ℓ : Loc nD τ sig) → Buf (Elt Ideal) ℓ) (ρ : Dev nD → PrngReg)

/-! ## The arguments, and the arrays the region stages -/

abbrev Q4 (c : Dev nD) : S2x16x2048x128.Idx → Elt Ideal .f32 := m ((c : Thread nD τ).loc main_arg0)
abbrev K4 (c : Dev nD) : S2x16x2048x128.Idx → Elt Ideal .f32 := m ((c : Thread nD τ).loc main_arg1)
abbrev V4 (c : Dev nD) : S2x16x2048x128.Idx → Elt Ideal .f32 := m ((c : Thread nD τ).loc main_arg2)

/-- A merged head number 16·b + h, split. -/
abbrev hb (bh : Fin 32) : Fin 2 := ⟨bh.val / 16, by have := bh.isLt; omega⟩
abbrev hh (bh : Fin 32) : Fin 16 := ⟨bh.val % 16, by omega⟩

/-- The reshape [2, 16, 2048, 128] → [32, 2048, 128] read at an index. -/
theorem merge_apply {α : Type} (x : S2x16x2048x128.Idx → α) (bh : Fin 32) (n : Fin 2048) (d : Fin 128) :
    shapeCast S32x2048x128 x shapeCasts_S2x16x2048x128_S32x2048x128 (ix3 bh n d) = x (ix4 (hb bh) (hh bh) n d) :=
  shapeCast_apply x _ _ _ (by
    rw [Shape.rowMajor_val_four, Shape.rowMajor_val_three]
    show ((bh.val / 16 * 16 + bh.val % 16) * 2048 + n.val) * 128 + d.val = (bh.val * 2048 + n.val) * 128 + d.val
    have := Nat.div_add_mod bh.val 16
    have e : bh.val / 16 * 16 + bh.val % 16 = bh.val := by omega
    rw [e])

/-- The specification with the two leading axes merged: what the result array of the region must hold. -/
def T3 (c : Dev nD) : S32x2048x128.Idx → Elt Ideal .f32 :=
  shapeCast S32x2048x128 (G (Q4 m c) (K4 m c) (V4 m c)) shapeCasts_S2x16x2048x128_S32x2048x128

/-! ## The index maps over the grid -/

/-- Position t = 4·head + 2·(query block) + (key block): every window is at head t / 4; the query and output windows at
    query block (t / 2) % 2; the key and value windows at key block min(key, query), which is 1 only at t ≡ 3 (mod 4). -/
theorem idx_facts : ∀ t : Fin cfg0.N,
    win0_0.index t (0 : Fin 3) = t.val / 4 ∧ win0_0.index t (1 : Fin 3) = t.val / 2 % 2 ∧ win0_0.index t (2 : Fin 3) = 0
    ∧ win0_1.index t (0 : Fin 3) = t.val / 4 ∧ win0_1.index t (1 : Fin 3) = t.val % 4 / 3 ∧ win0_1.index t (2 : Fin 3) = 0
    ∧ win0_2.index t (0 : Fin 3) = t.val / 4 ∧ win0_2.index t (1 : Fin 3) = t.val % 4 / 3 ∧ win0_2.index t (2 : Fin 3) = 0
    ∧ win0_3.index t (0 : Fin 3) = t.val / 4 ∧ win0_3.index t (1 : Fin 3) = t.val / 2 % 2 ∧ win0_3.index t (2 : Fin 3) = 0
    ∧ ((grid0.coords t) 1).val = t.val / 2 % 2 ∧ ((grid0.coords t) 2).val = t.val % 2 :=
  (by decide +kernel : ∀ t : Fin grid0.N, _)

/-! ## A staged block, read off the argument -/

/-- A row of window 0's block at position `t` is a row of q. -/
theorem blk_q (c : Dev nD) (t : Fin cfg0.N) (k : S32x2048x128.Idx) (r : Fin 1024) (e : Fin 128)
    (h0 : (k 0).val = t.val / 4) (h1 : (k 1).val = t.val / 2 % 2 * 1024 + r.val) (h2 : (k 2).val = e.val) :
    (iblk m c 0 t : Vec Ideal S1x1024x128 .f32) (ix3 (0 : Fin 1) r e) = (V m c main_v0 : S32x2048x128.Idx → Elt Ideal .f32) k := by
  obtain ⟨f00, f01, f02, f10, f11, f12, f20, f21, f22, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 3) * 1 + 1 * (0 : Fin 1).val = (k 0).val; rw [f00, h0]; simp
  | ⟨1, _⟩ => show win0_0.index t (1 : Fin 3) * 1024 + 1 * r.val = (k 1).val; rw [f01, h1]; omega
  | ⟨2, _⟩ => show win0_0.index t (2 : Fin 3) * 128 + 1 * e.val = (k 2).val; rw [f02, h2]; omega

theorem V_q (c : Dev nD) : (V m c main_v0 : S32x2048x128.Idx → Elt Ideal .f32)
    = shapeCast S32x2048x128 (Q4 m c) shapeCasts_S2x16x2048x128_S32x2048x128 := by
  show StableHlo.after hostOps0 (fun b => m (c, b)) (Proc.devRef .tc main_v0) = _
  after_results; rfl

theorem rd_q (c : Dev nD) (t : Fin cfg0.N) (bh : Fin 32) (n : Fin 2048) (r : Fin 1024) (e : Fin 128)
    (h0 : bh.val = t.val / 4) (h1 : n.val = t.val / 2 % 2 * 1024 + r.val) :
    (iblk m c 0 t : Vec Ideal S1x1024x128 .f32) (ix3 (0 : Fin 1) r e) = Q4 m c (ix4 (hb bh) (hh bh) n e) :=
  (blk_q m c t (ix3 bh n e) r e h0 h1 rfl).trans ((congrFun (V_q m c) _).trans (merge_apply _ bh n e))

/-- A row of window 1's block at position `t` is a row of k. -/
theorem blk_k (c : Dev nD) (t : Fin cfg0.N) (k : S32x2048x128.Idx) (r : Fin 1024) (e : Fin 128)
    (h0 : (k 0).val = t.val / 4) (h1 : (k 1).val = t.val % 4 / 3 * 1024 + r.val) (h2 : (k 2).val = e.val) :
    (iblk m c 1 t : Vec Ideal S1x1024x128 .f32) (ix3 (0 : Fin 1) r e) = (V m c main_v1 : S32x2048x128.Idx → Elt Ideal .f32) k := by
  obtain ⟨f00, f01, f02, f10, f11, f12, f20, f21, f22, -⟩ := idx_facts t
  unfold iblk
  rw [View.read_apply]
  show V m c main_v1 _ = V m c main_v1 _
  refine congrArg (V m c main_v1) (funext fun a => Fin.ext ?_)
  match a with
  | ⟨0, _⟩ => show win0_1.index t (0 : Fin 3) * 1 + 1 * (0 : Fin 1).val = (k 0).val; rw [f10, h0]; simp
  | ⟨1, _⟩ => show win0_1.index t (1 : Fin 3) * 1024 + 1 * r.val = (k 1).val; rw [f11, h1]; omega
  | ⟨2, _⟩ => show win0_1.index t (2 : Fin 3) * 128 + 1 * e.val = (k 2).val; rw [f12, h2]; omega

theorem V_k (c : Dev nD) : (V m c main_v1 : S32x2048x128.Idx → Elt Ideal .f32)
    = shapeCast S32x2048x128 (K4 m c) shapeCasts_S2x16x2048x128_S32x2048x128 := by
  show StableHlo.after hostOps0 (fun b => m (c, b)) (Proc.devRef .tc main_v1) = _
  after_results; rfl

theorem rd_k (c : Dev nD) (t : Fin cfg0.N) (bh : Fin 32) (n : Fin 2048) (r : Fin 1024) (e : Fin 128)
    (h0 : bh.val = t.val / 4) (h1 : n.val = t.val % 4 / 3 * 1024 + r.val) :
    (iblk m c 1 t : Vec Ideal S1x1024x128 .f32) (ix3 (0 : Fin 1) r e) = K4 m c (ix4 (hb bh) (hh bh) n e) :=
  (blk_k m c t (ix3 bh n e) r e h0 h1 rfl).trans ((congrFun (V_k m c) _).trans (merge_apply _ bh n e))

/-- A row of window 2's block at position `t` is a row of v. -/
theorem blk_v (c : Dev nD) (t : Fin cfg0.N) (k : S32x2048x128.Idx) (r : Fin 1024) (e : Fin 128)
    (h0 : (k 0).val = t.val / 4) (h1 : (k 1).val = t.val % 4 / 3 * 1024 + r.val) (h2 : (k 2).val = e.val) :
    (iblk m c 2 t : Vec Ideal S1x1024x128 .f32) (ix3 (0 : Fin 1) r e) = (V m c main_v2 : S32x2048x128.Idx → Elt Ideal .f32) k := by
  obtain ⟨f00, f01, f02, f10, f11, f12, f20, f21, f22, -⟩ := idx_facts t
  unfold iblk
  rw [View.read_apply]
  show V m c main_v2 _ = V m c main_v2 _
  refine congrArg (V m c main_v2) (funext fun a => Fin.ext ?_)
  match a with
  | ⟨0, _⟩ => show win0_2.index t (0 : Fin 3) * 1 + 1 * (0 : Fin 1).val = (k 0).val; rw [f20, h0]; simp
  | ⟨1, _⟩ => show win0_2.index t (1 : Fin 3) * 1024 + 1 * r.val = (k 1).val; rw [f21, h1]; omega
  | ⟨2, _⟩ => show win0_2.index t (2 : Fin 3) * 128 + 1 * e.val = (k 2).val; rw [f22, h2]; omega

theorem V_v (c : Dev nD) : (V m c main_v2 : S32x2048x128.Idx → Elt Ideal .f32)
    = shapeCast S32x2048x128 (V4 m c) shapeCasts_S2x16x2048x128_S32x2048x128 := by
  show StableHlo.after hostOps0 (fun b => m (c, b)) (Proc.devRef .tc main_v2) = _
  after_results; rfl

theorem rd_v (c : Dev nD) (t : Fin cfg0.N) (bh : Fin 32) (n : Fin 2048) (r : Fin 1024) (e : Fin 128)
    (h0 : bh.val = t.val / 4) (h1 : n.val = t.val % 4 / 3 * 1024 + r.val) :
    (iblk m c 2 t : Vec Ideal S1x1024x128 .f32) (ix3 (0 : Fin 1) r e) = V4 m c (ix4 (hb bh) (hh bh) n e) :=
  (blk_v m c t (ix3 bh n e) r e h0 h1 rfl).trans ((congrFun (V_v m c) _).trans (merge_apply _ bh n e))

/-! ## One step, in the specification's terms -/

theorem term_eq {mm n : ℕ} {q q' k k' : Fin 128 → EReal} {v v' : EReal} (hq : q = q') (hk : k = k') (hv : v = v') :
    term mm q n k v = term mm q' n k' v' := by subst hq hk hv; rfl

/-- The accumulating store at (r, d): the accumulator's entry plus the 1024 terms of the step's key block for query row
    (query block)·1024 + r. -/
theorem step_term (i : grid0.Coords) (x0 x1 x2 : Vec Ideal S1x1024x128 .f32) (acc : Vec Ideal S1024x128 .f32) (r : Fin 1024) (d : Fin 128) :
    step i x0 x1 x2 acc (ix2 r d) = acc (ix2 r d) + ∑ c : Fin 1024, term ((i 1).val * 1024 + r.val) (fun e => x0 (ix3 (0 : Fin 1) r e))
      ((i 2).val * 1024 + c.val) (fun e => x1 (ix3 (0 : Fin 1) c e)) (x2 (ix3 (0 : Fin 1) c d)) := by
  have hq : (i 1).val < 2 := (i 1).isLt
  have hk : (i 2).val < 2 := (i 2).isLt
  show k0_pay2 (F := Ideal) (k0_pay4 x2) (k0_pay5 (BitVec.ofNat 32 (i 1).val) (BitVec.ofNat 32 (i 2).val) x0 x1) (constant S1024x128 .f32 0x00000000#32) acc (ix2 r d) = _
  rw [step_apply]
  refine congrArg (acc (ix2 r d) + ·) (Finset.sum_congr rfl fun c _ => ?_)
  rw [weights_apply, offs r.val (i 1).val r.isLt hq, offs c.val (i 2).val c.isLt hk]
  exact select_term _ _ (by have := r.isLt; omega) (by have := c.isLt; omega) _ _ _ _ Ideal.ofBits_zero_f32

/-! ## What a writing position writes back -/

/-- The position before an odd position is even: the accumulator found there is what the zero-and-add run left. -/
theorem carry_prev (c : Dev nD) (t : Fin cfg0.N) (h0 : ¬t.val % 2 = 0) (hlt : t.val - 1 < cfg0.N) :
    carry m c (t.val - 1) hlt = (outNone, firstAt m c ⟨t.val - 1, hlt⟩ (by show (t.val - 1) % 2 = 0; omega)) :=
  carry_first m c ⟨t.val - 1, hlt⟩ (by show (t.val - 1) % 2 = 0; omega)

/-- The accumulator after an even position, at (r, d): zero plus the terms of the position's key block. -/
theorem acc_even (c : Dev nD) (t' : Fin cfg0.N) (h0 : t'.val % 2 = 0) (r : Fin 1024) (d : Fin 128) :
    firstAt m c t' h0 (ix2 r d) = 0 + ∑ c' : Fin 1024, term (((grid0.coords t') 1).val * 1024 + r.val)
      (fun e => (iblk m c 0 t' : Vec Ideal S1x1024x128 .f32) (ix3 (0 : Fin 1) r e)) (((grid0.coords t') 2).val * 1024 + c'.val)
      (fun e => (iblk m c 1 t' : Vec Ideal S1x1024x128 .f32) (ix3 (0 : Fin 1) c' e)) ((iblk m c 2 t' : Vec Ideal S1x1024x128 .f32) (ix3 (0 : Fin 1) c' d)) := by
  unfold firstAt
  rw [accFirst_eq, step_term, zero_apply]

/-- What an odd position writes back is its block of the specification. -/
theorem flushed_eq (c : Dev nD) (t : Fin cfg0.N) (hf : (cfg0.win 3).flush t = true) :
    (dats m 0 c).flushed 3 t = ((cfg0.win 3).blk t).view.read (Elt Ideal) (T3 m c) := by
  have hN : t.val < 128 := lt_of_lt_of_eq t.isLt (show cfg0.N = 128 from N_0)
  have h0 : ¬t.val % 2 = 0 := by have := (flush0_3 t).mp hf; omega
  have hlt : t.val - 1 < cfg0.N := Nat.lt_of_le_of_lt (Nat.sub_le _ _) t.isLt
  obtain ⟨-, -, -, -, -, -, -, -, -, f30, f31, f32, g1, g2⟩ := idx_facts t
  obtain ⟨-, -, -, -, -, -, -, -, -, -, -, -, g1', g2'⟩ := idx_facts ⟨t.val - 1, hlt⟩
  have g1p : ((grid0.coords ⟨t.val - 1, hlt⟩) 1).val = (t.val - 1) / 2 % 2 := g1'
  have g2p : ((grid0.coords ⟨t.val - 1, hlt⟩) 2).val = (t.val - 1) % 2 := g2'
  show (cfg0.win 3).cut (grid0.coords t) ((dats m 0 c).after 3 t) = _
  rw [after_o]
  refine funext fun (y : S1x1024x128.Idx) => ?_
  obtain ⟨u, r, d, rfl⟩ : ∃ (u : Fin 1) (r : Fin 1024) (d : Fin 128), y = ix3 u r d := ⟨y 0, y 1, y 2, eq_ix3 y⟩
  obtain ⟨bh, hbh⟩ : ∃ bh : Fin 32, bh.val = t.val / 4 := ⟨⟨t.val / 4, by omega⟩, rfl⟩
  obtain ⟨n, hn⟩ : ∃ n : Fin 2048, n.val = t.val / 2 % 2 * 1024 + r.val := ⟨⟨t.val / 2 % 2 * 1024 + r.val, by have := r.isLt; omega⟩, rfl⟩
  have hu : u.val = 0 := by have := u.isLt; omega
  have hR : ((cfg0.win 3).blk t).view.read (Elt Ideal) (T3 m c) (ix3 u r d) = G (Q4 m c) (K4 m c) (V4 m c) (ix4 (hb bh) (hh bh) n d) := by
    rw [View.read_apply]
    refine (congrArg (T3 m c) (?_ : _ = ix3 bh n d)).trans (merge_apply _ bh n d)
    refine funext fun a => Fin.ext ?_
    match a with
    | ⟨0, _⟩ => show win0_3.index t (0 : Fin 3) * 1 + 1 * u.val = bh.val; rw [f30, hu, hbh]; omega
    | ⟨1, _⟩ => show win0_3.index t (1 : Fin 3) * 1024 + 1 * r.val = n.val; rw [f31, hn]; omega
    | ⟨2, _⟩ => show win0_3.index t (2 : Fin 3) * 128 + 1 * d.val = d.val; rw [f32]; omega
  show (carry m c t.val t.isLt).1 (ix3 u r d) = _
  rw [hR]
  show _ = ∑ n' : Fin 2048, term n.val (fun e => Q4 m c (ix4 (hb bh) (hh bh) n e)) n'.val (fun e => K4 m c (ix4 (hb bh) (hh bh) n' e))
    (V4 m c (ix4 (hb bh) (hh bh) n' d))
  by_cases h1 : t.val % 4 = 1
  · -- query block 0: zero plus key block 0
    rw [carry_skip m c t h0 h1]
    dsimp only
    unfold skipOutAt
    rw [outSkip_eq, copy_apply, carry_prev m c t h0 hlt]
    dsimp only
    rw [acc_even]
    refine (congrArg (0 + ·) (Finset.sum_congr rfl fun c' _ => term_eq (funext fun e => ?_) (funext fun e => ?_) ?_)).trans
      (first_rows r _ (fun n' e => K4 m c (ix4 (hb bh) (hh bh) n' e)) (fun n' => V4 m c (ix4 (hb bh) (hh bh) n' d)) 0 rfl _ _ _ (g1p.trans (by omega)) (g2p.trans (by omega)) (by omega))
    · exact rd_q m c ⟨t.val - 1, hlt⟩ bh n r e (by show bh.val = (t.val - 1) / 4; omega) (by show n.val = (t.val - 1) / 2 % 2 * 1024 + r.val; omega)
    · exact rd_k m c ⟨t.val - 1, hlt⟩ bh (lo c') c' e (by show bh.val = (t.val - 1) / 4; omega) (by show c'.val = (t.val - 1) % 4 / 3 * 1024 + c'.val; omega)
    · exact rd_v m c ⟨t.val - 1, hlt⟩ bh (lo c') c' d (by show bh.val = (t.val - 1) / 4; omega) (by show c'.val = (t.val - 1) % 4 / 3 * 1024 + c'.val; omega)
  · -- query block 1: zero plus key block 0, plus key block 1
    rw [carry_last m c t h0 h1]
    dsimp only
    unfold lastOutAt
    rw [outLast_eq, copy_apply, step_term, carry_prev m c t h0 hlt]
    dsimp only
    rw [acc_even]
    refine (congrArg₂ (· + ·) (congrArg (0 + ·) (Finset.sum_congr rfl fun c' _ => term_eq (funext fun e => ?_) (funext fun e => ?_) ?_))
        (Finset.sum_congr rfl fun c' _ => term_eq (funext fun e => ?_) (funext fun e => ?_) ?_)).trans
      (second_rows r _ (fun n' e => K4 m c (ix4 (hb bh) (hh bh) n' e)) (fun n' => V4 m c (ix4 (hb bh) (hh bh) n' d)) 0 rfl _ _ _ _ _ (g1p.trans (by omega)) (g1.trans (by omega)) (g2p.trans (by omega)) (g2.trans (by omega)) (by omega))
    · exact rd_q m c ⟨t.val - 1, hlt⟩ bh n r e (by show bh.val = (t.val - 1) / 4; omega) (by show n.val = (t.val - 1) / 2 % 2 * 1024 + r.val; omega)
    · exact rd_k m c ⟨t.val - 1, hlt⟩ bh (lo c') c' e (by show bh.val = (t.val - 1) / 4; omega) (by show c'.val = (t.val - 1) % 4 / 3 * 1024 + c'.val; omega)
    · exact rd_v m c ⟨t.val - 1, hlt⟩ bh (lo c') c' d (by show bh.val = (t.val - 1) / 4; omega) (by show c'.val = (t.val - 1) % 4 / 3 * 1024 + c'.val; omega)
    · exact rd_q m c t bh n r e (by omega) (by omega)
    · exact rd_k m c t bh (hi c') c' e (by omega) (by show 1024 + c'.val = t.val % 4 / 3 * 1024 + c'.val; omega)
    · exact rd_v m c t bh (hi c') c' d (by omega) (by show 1024 + c'.val = t.val % 4 / 3 * 1024 + c'.val; omega)

/-! ## The result array, and the result -/

/-- The output blocks written at the odd positions tile the array: it ends holding the merged specification. -/
theorem final3 (c : Dev nD) : (dats m 0 c).arrAt 3 cfg0.N = T3 m c :=
  (dats m 0 c).arrAt_eq_of_cover 3 (T3 m c) (flushed_eq m c) fun i => by
    have hi0 : (i 0).val < 32 := (i 0).isLt
    have hi1 : (i 1).val < 2048 := (i 1).isLt
    have hi2 : (i 2).val < 128 := (i 2).isLt
    have hN : cfg0.N = 128 := N_0
    obtain ⟨t, ht⟩ : ∃ t : Fin cfg0.N, t.val = 4 * (i 0).val + 2 * ((i 1).val / 1024) + 1 := ⟨⟨_, by omega⟩, rfl⟩
    obtain ⟨-, -, -, -, -, -, -, -, -, f30, f31, f32, -⟩ := idx_facts t
    refine ⟨t, (flush0_3 t).mpr (by omega), ?_⟩
    show i ∈ ((View.whole main_v3).slice (win0_3.rect t)).set
    rw [View.set_slice_whole, Rect.mem_set_unit]
    intro a
    match a with
    | ⟨0, _⟩ => show win0_3.index t (0 : Fin 3) * 1 ≤ (i 0).val ∧ (i 0).val < win0_3.index t (0 : Fin 3) * 1 + 1; rw [f30]; omega
    | ⟨1, _⟩ => show win0_3.index t (1 : Fin 3) * 1024 ≤ (i 1).val ∧ (i 1).val < win0_3.index t (1 : Fin 3) * 1024 + 1024; rw [f31]; omega
    | ⟨2, _⟩ => show win0_3.index t (2 : Fin 3) * 128 ≤ (i 2).val ∧ (i 2).val < win0_3.index t (2 : Fin 3) * 128 + 128; rw [f32]; omega

/-- The host's reshape back to [2, 16, 2048, 128] gives the specification. -/
theorem result_eq (c : Dev nD) : Pipeline.afterTail₀ cfgs (dats m) 0 (V0 m) [hostOps1] c main_v4 = G (Q4 m c) (K4 m c) (V4 m c) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3) = T3 m c :=
    (Pipeline.withArrays_arr spec0 launch0.win.arr_inj c _ _ 3).trans (final3 m c)
  rw [e]
  exact shapeCast_shapeCast _ _ _

/-- The run, read: the result at the specification of the arguments, the arguments unchanged. -/
theorem run : θ_run defs (onTc (τ := τ) (main (F := Ideal))) ⟨m, fun _ => 0, ρ⟩ (fun r => ∀ c : Dev nD,
      r.2.mem ((c.tc : Thread nD τ).loc main_v4) = G (Q4 m c) (K4 m c) (V4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Causal

end
-- ==== Proof.RefIsG.lean ====
/-
  The reference's result, stage by stage, is the specification: at (b, h, m, d) its last product is the sum over the
  2048 keys of the masked weight times the value; the mask is the lower-triangular "row ≥ column" comparison of the
  two index grids, the weight is the exponential of the same three-term logit, and the two host row sums start from
  the zero word.
-/
import proofs.«161130_j21603685499692_1_alg».proof.Proof.Gen.ReferenceIdeal.Read
import proofs.«161130_j21603685499692_1_alg».proof.Proof.RbfSpec

set_option maxRecDepth 16384

noncomputable section

namespace Cert.ReferenceIdeal.RefValue

open Cert.ReferenceIdeal Cert.ReferenceIdeal.Gen Cert.ReferenceIdeal.Read
open Idealize.ShloMosaic Idealize.ShloMosaic.ValueIdx Cert.Rbf

variable (b : Fin 2) (h : Fin 16) (m n : Fin 2048) (d e : Fin 128) (u : Fin 1)

/-! ## The composed index maps of the reference's stages, at indices given by coordinates -/

theorem e_l22 : lidx_main_v22 (ix4 b h m d) n = ix4 b h m n := funext fun a => Fin.ext (by match a with | ⟨0, _⟩ => rfl | ⟨1, _⟩ => rfl | ⟨2, _⟩ => rfl | ⟨3, _⟩ => rfl)
theorem e_r22 : ridx_main_v22 (ix4 b h m d) n = ix4 b h n d := funext fun a => Fin.ext (by match a with | ⟨0, _⟩ => rfl | ⟨1, _⟩ => rfl | ⟨2, _⟩ => rfl | ⟨3, _⟩ => rfl)
theorem e_mask4 : idx_main_call1_v1 (ix4 b h m n) = ix4 (0 : Fin 1) (0 : Fin 1) m n := funext fun a => Fin.ext (by match a with | ⟨0, _⟩ => rfl | ⟨1, _⟩ => rfl | ⟨2, _⟩ => rfl | ⟨3, _⟩ => rfl)
theorem e_mask2 (u v : Fin 1) : idx_main_v19 (ix4 u v m n) = ix2 m n := funext fun a => Fin.ext (by match a with | ⟨0, _⟩ => rfl | ⟨1, _⟩ => rfl)
theorem e_l4 : lidx_main_v4 (ix4 b h m n) e = ix4 b h m e := funext fun a => Fin.ext (by match a with | ⟨0, _⟩ => rfl | ⟨1, _⟩ => rfl | ⟨2, _⟩ => rfl | ⟨3, _⟩ => rfl)
theorem e_r4 : ridx_main_v4 (ix4 b h m n) e = ix4 b h n e := funext fun a => Fin.ext (by match a with | ⟨0, _⟩ => rfl | ⟨1, _⟩ => rfl | ⟨2, _⟩ => rfl | ⟨3, _⟩ => rfl)
theorem e_qcol : idx_main_v10 (ix4 b h m n) = ix4 b h m (0 : Fin 1) := funext fun a => Fin.ext (by match a with | ⟨0, _⟩ => rfl | ⟨1, _⟩ => rfl | ⟨2, _⟩ => rfl | ⟨3, _⟩ => rfl)
theorem e_qvec : idx_main_v7 (ix4 b h m u) = ix3 b h m := funext fun a => Fin.ext (by match a with | ⟨0, _⟩ => rfl | ⟨1, _⟩ => rfl | ⟨2, _⟩ => rfl)
theorem e_qrow : idx_main_v1 (ix3 b h m) e = ix4 b h m e := funext fun a => Fin.ext (by match a with | ⟨0, _⟩ => rfl | ⟨1, _⟩ => rfl | ⟨2, _⟩ => rfl | ⟨3, _⟩ => rfl)
theorem e_krow4 : idx_main_v15 (ix4 b h m n) = ix4 b h (0 : Fin 1) n := funext fun a => Fin.ext (by match a with | ⟨0, _⟩ => rfl | ⟨1, _⟩ => rfl | ⟨2, _⟩ => rfl | ⟨3, _⟩ => rfl)
theorem e_kvec : idx_main_v12 (ix4 b h u n) = ix3 b h n := funext fun a => Fin.ext (by match a with | ⟨0, _⟩ => rfl | ⟨1, _⟩ => rfl | ⟨2, _⟩ => rfl)
theorem e_krow : idx_main_v3 (ix3 b h n) e = ix4 b h n e := funext fun a => Fin.ext (by match a with | ⟨0, _⟩ => rfl | ⟨1, _⟩ => rfl | ⟨2, _⟩ => rfl | ⟨3, _⟩ => rfl)

/-- A one-bit word selected between true and false is itself. -/
theorem mask_bit (x : BitVec 1) : Scalar.select x (1#1 : BitVec 1) (0#1 : BitVec 1) = x := by revert x; decide
theorem addi_zero (x : BitVec 32) : IntOp.addi x 0#32 = x := by unfold IntOp.addi; exact BitVec.add_zero x

/-- The reference's result at an index given by coordinates. -/
theorem ref_at (x0 x1 x2 : (⟨S2x16x2048x128, .f32⟩ : BufTy).Contents (Elt Ideal)) :
    val_main_v22 (F := Ideal) x0 x1 x2 (ix4 b h m d) = G x0 x1 x2 (ix4 b h m d) := by
  rw [val_main_v22_apply]
  unfold G
  refine Finset.sum_congr rfl fun n _ => ?_
  simp only [e_l22, e_r22, val_main_v21_apply, val_main_call1_v1_apply, e_mask4, val_main_v19_apply, e_mask2, val_main_v18_apply,
    val_main_call0_v4_apply, val_main_call0_v2_apply, val_main_call0_v0_apply, val_main_call0_v1_apply, val_main_call0_c_apply,
    val_main_call0_v3_apply, val_main_v17_apply, val_main_c_apply, val_main_call0_v5_apply, val_main_call0_c_0_apply,
    val_main_call1_v2_apply, val_main_call1_v0_apply, val_main_cst_4_apply, val_main_v20_apply, val_main_v16_apply,
    val_main_v11_apply, val_main_v6_apply, val_main_v5_apply, val_main_cst_1_apply, val_main_v4_apply, e_l4, e_r4,
    val_main_v10_apply, e_qcol, val_main_v9_apply, val_main_v8_apply, val_main_cst_2_apply, val_main_v7_apply, e_qvec,
    val_main_v1_apply, val_main_cst_apply, val_main_v0_apply, e_qrow,
    val_main_v15_apply, e_krow4, val_main_v14_apply, val_main_v13_apply, val_main_cst_3_apply, val_main_v12_apply, e_kvec,
    val_main_v3_apply, val_main_cst_0_apply, val_main_v2_apply, e_krow,
    mask_bit, addi_zero, Ideal.ofBits_def, Ideal.mulf_def, Ideal.subf_def, Ideal.hostUnary_exp_def, Ideal.ofBits_zero_f32, zero_add]
  exact select_term m.val n.val (by have := m.isLt; omega) (by have := n.isLt; omega) _ _ _ _ rfl

/-- The reference's result is the specification. -/
theorem ref_eq (x0 x1 x2 : (⟨S2x16x2048x128, .f32⟩ : BufTy).Contents (Elt Ideal)) :
    val_main_v22 (F := Ideal) x0 x1 x2 = G x0 x1 x2 := by
  funext i
  obtain ⟨b, h, m, d, rfl⟩ : ∃ (b : Fin 2) (h : Fin 16) (m : Fin 2048) (d : Fin 128), i = ix4 b h m d :=
    ⟨i 0, i 1, i 2, i 3, eq_ix4 i⟩
  exact ref_at b h m d x0 x1 x2

end Cert.ReferenceIdeal.RefValue

end
-- ==== Proof.lean ====
/-
  Causal attention with a Gaussian weight, computed block by block on a (head, query block, key block) grid with a
  running accumulator, against the plain four-axis formula.

  Both programs compute, at (b, h, m, d), the sum over the keys n ≤ m of exp((c₂·⟨q_m, k_n⟩ − c₁·⟨q_m, q_m⟩) − c₁·⟨k_n, k_n⟩)
  times v[b, h, n, d] (Proof/RbfSpec.lean).  The kernel zeroes an accumulator at the first key block, adds a block's
  contribution whenever the key block is not above the query block, and copies the accumulator out at the last key
  block; position by position this gives, for a query row of block 0, zero plus the terms of key block 0, and for a
  row of block 1, zero plus the terms of key block 0 plus those of key block 1 — in both cases the whole row sum,
  because for a row of block 0 every term of key block 1 is masked to zero.  The changes of format on the way into
  the two matrix products are the identity over the extended reals, and a matrix product into a zero accumulator
  is the plain sum.  Only commutativity and associativity of + are used, so the finiteness of the inputs is never
  opened.  The kernel's own run (termination, no fault, arguments unchanged) is proved from its three control cases
  (Proof/Kernel*/Cases … Carry); the ideal pass rewrote nothing, so its claim is trivial.
-/
import proofs.«161130_j21603685499692_1_alg».proof.Defs
import proofs.«161130_j21603685499692_1_alg».proof.Proof.Gen.Kernel
import proofs.«161130_j21603685499692_1_alg».proof.Proof.Gen.KernelIdeal
import proofs.«161130_j21603685499692_1_alg».proof.Proof.Gen.ReferenceIdeal
import proofs.«161130_j21603685499692_1_alg».proof.Proof.Gen.ReferenceIdeal.Run
import proofs.«161130_j21603685499692_1_alg».proof.Proof.Gen.ReferenceIdeal.Read
import proofs.«161130_j21603685499692_1_alg».proof.Proof.Gen.Pre_finite_inputs
import proofs.«161130_j21603685499692_1_alg».proof.Proof.Kernel.Carry
import proofs.«161130_j21603685499692_1_alg».proof.Proof.KernelIdeal.Final
import proofs.«161130_j21603685499692_1_alg».proof.Proof.RefIsG
import Idealize.ShloMosaic.Adequacy
import Idealize.ShloMosaic.Init

noncomputable section

namespace Cert.Proof

open Idealize.ShloMosaic Idealize.SL.Sem

/-- The kernel as printed runs to its end, faults nowhere and leaves its arguments unchanged. -/
theorem frame_k : Cert.frame_Kernel := fun m ρ _ => Cert.Kernel.Causal.frame m ρ

/-- So does its idealization. -/
theorem frame_ki : Cert.frame_KernelIdeal := fun m ρ _ => Cert.KernelIdeal.Causal.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals both programs end at the same function of the arguments. -/
theorem algebraic : Cert.algebraic_KernelIdeal_ReferenceIdeal := by
  intro m ρ m' ρ' _ hagree
  refine ⟨fun c => Cert.Rbf.G (Cert.KernelIdeal.Causal.Q4 m c) (Cert.KernelIdeal.Causal.K4 m c) (Cert.KernelIdeal.Causal.V4 m c),
    Cert.KernelIdeal.Causal.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v22_eq (F := Ideal) _ _ _).trans ?_
  rw [Cert.ReferenceIdeal.RefValue.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
